-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg7 : FVec F S32 .f32) (main_arg8 : FVec F S32x16 .f32) (main_arg9 : FVec F S16 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg7
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg8
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg9
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : IVec S2x800000 32) (main_arg3 : IVec S2x800000 32) (main_arg4 : FVec F S64x64 .f32) (main_arg5 : FVec F S64 .f32) (main_arg6 : FVec F S64x32 .f32) (main_arg7 : FVec F S32 .f32) (main_arg8 : FVec F S32x16 .f32) (main_arg9 : FVec F S16 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg6
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg7 main_arg8 main_arg9 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x64 : Shape := ⟨2, ![2000, 64]⟩
abbrev S850000x64 : Shape := ⟨2, ![850000, 64]⟩
abbrev S1x64 : Shape := ⟨2, ![1, 64]⟩
abbrev S50000x32 : Shape := ⟨2, ![50000, 32]⟩
abbrev S2000x32 : Shape := ⟨2, ![2000, 32]⟩
abbrev S850000x32 : Shape := ⟨2, ![850000, 32]⟩
abbrev S1x32 : Shape := ⟨2, ![1, 32]⟩
abbrev S50000x16 : Shape := ⟨2, ![50000, 16]⟩
abbrev S2000x16 : Shape := ⟨2, ![2000, 16]⟩
abbrev S850000x16 : Shape := ⟨2, ![850000, 16]⟩
abbrev S1x16 : Shape := ⟨2, ![1, 16]⟩

abbrev nBuf : Space → Nat
  | .hbm => 184
  | .vmem => 30
  | .smem => 0
  | _ => 0

abbrev hbmTy0_0 (i : Nat) : BufTy := match i % 128 with
  | 0 => ⟨S50000x64, .f32⟩
  | 1 => ⟨S2x800000, .i32⟩
  | 2 => ⟨S2x800000, .i32⟩
  | 3 => ⟨S2x800000, .i32⟩
  | 4 => ⟨S64x64, .f32⟩
  | 5 => ⟨S64, .f32⟩
  | 6 => ⟨S64x32, .f32⟩
  | 7 => ⟨S32, .f32⟩
  | 8 => ⟨S32x16, .f32⟩
  | 9 => ⟨S16, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x64, .f32⟩
  | 50 => ⟨S850000x1, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x64, .f32⟩
  | 60 => ⟨S850000x64, .f32⟩
  | 61 => ⟨S850000x64, .f32⟩
  | 62 => ⟨S_, .f32⟩
  | 63 => ⟨S50000x64, .f32⟩
  | 64 => ⟨S850000x1, .i32⟩
  | 65 => ⟨S50000x64, .f32⟩
  | 66 => ⟨S1x64, .f32⟩
  | 67 => ⟨S50000x64, .f32⟩
  | 68 => ⟨S50000, .i32⟩
  | 69 => ⟨S1x800000, .i32⟩
  | 70 => ⟨S800000, .i32⟩
  | 71 => ⟨S850000, .i32⟩
  | 72 => ⟨S1x800000, .i32⟩
  | 73 => ⟨S800000, .i32⟩
  | 74 => ⟨S850000, .i32⟩
  | 75 => ⟨S_, .f32⟩
  | 76 => ⟨S850000, .f32⟩
  | 77 => ⟨S_, .f32⟩
  | 78 => ⟨S50000, .f32⟩
  | 79 => ⟨S850000x1, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S50000, .f32⟩
  | 87 => ⟨S50000, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000, .f32⟩
  | 106 => ⟨S850000, .f32⟩
  | 107 => ⟨S50000x32, .f32⟩
  | 108 => ⟨S850000x1, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x32, .f32⟩
  | 118 => ⟨S850000x32, .f32⟩
  | 119 => ⟨S850000x32, .f32⟩
  | 120 => ⟨S_, .f32⟩
  | 121 => ⟨S50000x32, .f32⟩
  | 122 => ⟨S850000x1, .i32⟩
  | 123 => ⟨S50000x32, .f32⟩
  | 124 => ⟨S1x32, .f32⟩
  | 125 => ⟨S50000x32, .f32⟩
  | 126 => ⟨S50000, .i32⟩
  | 127 => ⟨S1x800000, .i32⟩
  | _ => ⟨S50000x64, .f32⟩

abbrev hbmTy0_1 (i : Nat) : BufTy := match i % 128 with
  | 0 => ⟨S800000, .i32⟩
  | 1 => ⟨S850000, .i32⟩
  | 2 => ⟨S1x800000, .i32⟩
  | 3 => ⟨S800000, .i32⟩
  | 4 => ⟨S850000, .i32⟩
  | 5 => ⟨S_, .f32⟩
  | 6 => ⟨S850000, .f32⟩
  | 7 => ⟨S_, .f32⟩
  | 8 => ⟨S50000, .f32⟩
  | 9 => ⟨S850000x1, .i32⟩
  | 10 => ⟨S50000, .f32⟩
  | 11 => ⟨S_, .f32⟩
  | 12 => ⟨S50000, .f32⟩
  | 13 => ⟨S50000, .i1⟩
  | 14 => ⟨S50000, .f32⟩
  | 15 => ⟨S_, .f32⟩
  | 16 => ⟨S50000, .f32⟩
  | 17 => ⟨S50000, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S850000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S850000, .f32⟩
  | 37 => ⟨S50000x16, .f32⟩
  | 38 => ⟨S850000x1, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000x16, .f32⟩
  | 48 => ⟨S850000x16, .f32⟩
  | 49 => ⟨S850000x16, .f32⟩
  | 50 => ⟨S_, .f32⟩
  | 51 => ⟨S50000x16, .f32⟩
  | 52 => ⟨S850000x1, .i32⟩
  | 53 => ⟨S50000x16, .f32⟩
  | 54 => ⟨S1x16, .f32⟩
  | 55 => ⟨S50000x16, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x32, .f32⟩
  | .local _ .vmem, ⟨13, _⟩ => ⟨S2000x32, .f32⟩
  | .local _ .vmem, ⟨14, _⟩ => ⟨S2000x32, .f32⟩
  | .local _ .vmem, ⟨15, _⟩ => ⟨S2000x32, .f32⟩
  | .local _ .vmem, ⟨16, _⟩ => ⟨S2000x32, .f32⟩
  | .local _ .vmem, ⟨17, _⟩ => ⟨S1x32, .f32⟩
  | .local _ .vmem, ⟨18, _⟩ => ⟨S2000x32, .f32⟩
  | .local _ .vmem, ⟨19, _⟩ => ⟨S2000x32, .f32⟩
  | .local _ .vmem, ⟨20, _⟩ => ⟨S2000x32, .f32⟩
  | .local _ .vmem, ⟨21, _⟩ => ⟨S2000x32, .f32⟩
  | .local _ .vmem, ⟨22, _⟩ => ⟨S32x16, .f32⟩
  | .local _ .vmem, ⟨23, _⟩ => ⟨S2000x16, .f32⟩
  | .local _ .vmem, ⟨24, _⟩ => ⟨S2000x16, .f32⟩
  | .local _ .vmem, ⟨25, _⟩ => ⟨S2000x16, .f32⟩
  | .local _ .vmem, ⟨26, _⟩ => ⟨S2000x16, .f32⟩
  | .local _ .vmem, ⟨27, _⟩ => ⟨S1x16, .f32⟩
  | .local _ .vmem, ⟨28, _⟩ => ⟨S2000x16, .f32⟩
  | .local _ .vmem, ⟨29, _⟩ => ⟨S2000x16, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_call1_v0 : Ref sig .tc := ⟨.hbm, 86, rfl⟩
abbrev main_v60 : Ref sig .tc := ⟨.hbm, 87, rfl⟩
abbrev main_c_13 : Ref sig .tc := ⟨.hbm, 88, rfl⟩
abbrev main_v61 : Ref sig .tc := ⟨.hbm, 89, rfl⟩
abbrev main_v62 : Ref sig .tc := ⟨.hbm, 90, rfl⟩
abbrev main_c_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_15 : Ref sig .tc := ⟨.hbm, 97, rfl⟩
abbrev main_v68 : Ref sig .tc := ⟨.hbm, 98, rfl⟩
abbrev main_v69 : Ref sig .tc := ⟨.hbm, 99, rfl⟩
abbrev main_c_16 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_17 : Ref sig .tc := ⟨.hbm, 109, rfl⟩
abbrev main_v78 : Ref sig .tc := ⟨.hbm, 110, rfl⟩
abbrev main_v79 : Ref sig .tc := ⟨.hbm, 111, rfl⟩
abbrev main_c_18 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_20 : Ref sig .tc := ⟨.hbm, 133, rfl⟩
abbrev main_v99 : Ref sig .tc := ⟨.hbm, 134, rfl⟩
abbrev main_cst_21 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_22 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_23 : Ref sig .tc := ⟨.hbm, 143, rfl⟩
abbrev main_call2_v0 : Ref sig .tc := ⟨.hbm, 144, rfl⟩
abbrev main_v106 : Ref sig .tc := ⟨.hbm, 145, rfl⟩
abbrev main_c_24 : Ref sig .tc := ⟨.hbm, 146, rfl⟩
abbrev main_v107 : Ref sig .tc := ⟨.hbm, 147, rfl⟩
abbrev main_v108 : Ref sig .tc := ⟨.hbm, 148, rfl⟩
abbrev main_c_25 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_c_26 : Ref sig .tc := ⟨.hbm, 155, rfl⟩
abbrev main_v114 : Ref sig .tc := ⟨.hbm, 156, rfl⟩
abbrev main_v115 : Ref sig .tc := ⟨.hbm, 157, rfl⟩
abbrev main_c_27 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_c_28 : Ref sig .tc := ⟨.hbm, 167, rfl⟩
abbrev main_v124 : Ref sig .tc := ⟨.hbm, 168, rfl⟩
abbrev main_v125 : Ref sig .tc := ⟨.hbm, 169, rfl⟩
abbrev main_c_29 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_cst_30 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S2000x32_S2000x32_0_0 : ∀ a, (![0, 0] : Fin 2 → Nat) a + S2000x32.size a ≤ S2000x32.size a
  h_S2000x32 : 0 < S2000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  shapeCasts_S32_S1x32 : S32.ShapeCasts S1x32
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x16_S32x16_0_0 : ∀ a, (![0, 0] : Fin 2 → Nat) a + S32x16.size a ≤ S32x16.size a
  h_S32x16 : 0 < S32x16.numel
  inb_S2000x16_S2000x16_0_0 : ∀ a, (![0, 0] : Fin 2 → Nat) a + S2000x16.size a ≤ S2000x16.size a
  h_S2000x16 : 0 < S2000x16.numel
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x64_S64x64_S2000x64_1_0_0_1_n_n_wf : DotDims.WF S2000x64 S64x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x32_S2000x32_1_0_0_1_n_n_wf : DotDims.WF S2000x64 S64x32 S2000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S2000x32_S32x16_S2000x16_1_0_0_1_n_n_wf : DotDims.WF S2000x32 S32x16 S2000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x32.size a ≤ S50000x32.size a
  hwx2_2 : ∀ i : grid2.Coords, EltTy.bits .f32 = 32 ∨ (Rect.block (s := S50000x32) S2000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S50000x32.size a
  hwx3_0 : ∀ i : grid3.Coords, EltTy.bits .f32 = 32 ∨ (Rect.block (s := S50000x32) S2000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x32.size a ≤ S50000x32.size a
  hwx3_2 : ∀ i : grid3.Coords, EltTy.bits .f32 = 32 ∨ (Rect.block (s := S50000x32) S2000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x32.size a ≤ S50000x32.size a
  hwx4_0 : ∀ i : grid4.Coords, EltTy.bits .f32 = 32 ∨ (Rect.block (s := S50000x32) S2000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x16.size a ≤ S32x16.size a
  hwx4_1 : ∀ i : grid4.Coords, EltTy.bits .f32 = 32 ∨ (Rect.block (s := S32x16) S32x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x16.size a ≤ S50000x16.size a
  hwx4_2 : ∀ i : grid4.Coords, EltTy.bits .f32 = 32 ∨ (Rect.block (s := S50000x16) S2000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x16.size a ≤ S50000x16.size a
  hwx5_0 : ∀ i : grid5.Coords, EltTy.bits .f32 = 32 ∨ (Rect.block (s := S50000x16) S2000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x16.size a ≤ S50000x16.size a
  hwx5_2 : ∀ i : grid5.Coords, EltTy.bits .f32 = 32 ∨ (Rect.block (s := S50000x16) S2000x16.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v76) S2000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S2000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v91) S2000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S32x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v122) S2000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v135) S2000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v136) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v137) S2000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩
abbrev S50000x16 : Shape := ⟨2, ![50000, 16]⟩
abbrev S850000x16 : Shape := ⟨2, ![850000, 16]⟩
abbrev S1x16 : Shape := ⟨2, ![1, 16]⟩

abbrev nBuf : Space → Nat
  | .hbm => 196
  | .vmem => 0
  | .smem => 0
  | _ => 0

abbrev hbmTy0_0 (i : Nat) : BufTy := match i % 128 with
  | 0 => ⟨S50000x64, .f32⟩
  | 1 => ⟨S2x800000, .i32⟩
  | 2 => ⟨S2x800000, .i32⟩
  | 3 => ⟨S2x800000, .i32⟩
  | 4 => ⟨S64x64, .f32⟩
  | 5 => ⟨S64, .f32⟩
  | 6 => ⟨S64x32, .f32⟩
  | 7 => ⟨S32, .f32⟩
  | 8 => ⟨S32x16, .f32⟩
  | 9 => ⟨S16, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x64, .f32⟩
  | 50 => ⟨S850000x1, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x64, .f32⟩
  | 60 => ⟨S850000x64, .f32⟩
  | 61 => ⟨S850000x64, .f32⟩
  | 62 => ⟨S_, .f32⟩
  | 63 => ⟨S50000x64, .f32⟩
  | 64 => ⟨S850000x1, .i32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S50000, .i32⟩
  | 73 => ⟨S1x800000, .i32⟩
  | 74 => ⟨S800000, .i32⟩
  | 75 => ⟨S850000, .i32⟩
  | 76 => ⟨S1x800000, .i32⟩
  | 77 => ⟨S800000, .i32⟩
  | 78 => ⟨S850000, .i32⟩
  | 79 => ⟨S_, .f32⟩
  | 80 => ⟨S850000, .f32⟩
  | 81 => ⟨S_, .f32⟩
  | 82 => ⟨S50000, .f32⟩
  | 83 => ⟨S850000x1, .i32⟩
  | 84 => ⟨S50000, .f32⟩
  | 85 => ⟨S_, .f32⟩
  | 86 => ⟨S50000, .f32⟩
  | 87 => ⟨S50000, .i1⟩
  | 88 => ⟨S50000, .f32⟩
  | 89 => ⟨S_, .f32⟩
  | 90 => ⟨S50000, .f32⟩
  | 91 => ⟨S50000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S50000x32, .f32⟩
  | 112 => ⟨S850000x1, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x32, .f32⟩
  | 122 => ⟨S850000x32, .f32⟩
  | 123 => ⟨S850000x32, .f32⟩
  | 124 => ⟨S_, .f32⟩
  | 125 => ⟨S50000x32, .f32⟩
  | 126 => ⟨S850000x1, .i32⟩
  | 127 => ⟨S50000x32, .f32⟩
  | _ => ⟨S50000x64, .f32⟩

abbrev hbmTy0_1 (i : Nat) : BufTy := match i % 128 with
  | 0 => ⟨S1x32, .f32⟩
  | 1 => ⟨S50000x32, .f32⟩
  | 2 => ⟨S50000x32, .f32⟩
  | 3 => ⟨S_, .f32⟩
  | 4 => ⟨S50000x32, .f32⟩
  | 5 => ⟨S50000x32, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S50000, .f32⟩
  | 25 => ⟨S50000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S50000x16, .f32⟩
  | 46 => ⟨S850000x1, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x16, .f32⟩
  | 56 => ⟨S850000x16, .f32⟩
  | 57 => ⟨S850000x16, .f32⟩
  | 58 => ⟨S_, .f32⟩
  | 59 => ⟨S50000x16, .f32⟩
  | 60 => ⟨S850000x1, .i32⟩
  | 61 => ⟨S50000x16, .f32⟩
  | 62 => ⟨S1x16, .f32⟩
  | 63 => ⟨S50000x16, .f32⟩
  | 64 => ⟨S50000x16, .f32⟩
  | 65 => ⟨S_, .f32⟩
  | 66 => ⟨S50000x16, .f32⟩
  | 67 => ⟨S50000x16, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_call2_v0 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_c_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_15 : Ref sig .tc := ⟨.hbm, 101, rfl⟩
abbrev main_v70 : Ref sig .tc := ⟨.hbm, 102, rfl⟩
abbrev main_v71 : Ref sig .tc := ⟨.hbm, 103, rfl⟩
abbrev main_c_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_17 : Ref sig .tc := ⟨.hbm, 113, rfl⟩
abbrev main_v80 : Ref sig .tc := ⟨.hbm, 114, rfl⟩
abbrev main_v81 : Ref sig .tc := ⟨.hbm, 115, rfl⟩
abbrev main_c_18 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_20 : Ref sig .tc := ⟨.hbm, 141, rfl⟩
abbrev main_v103 : Ref sig .tc := ⟨.hbm, 142, rfl⟩
abbrev main_cst_21 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_22 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_23 : Ref sig .tc := ⟨.hbm, 151, rfl⟩
abbrev main_call4_v0 : Ref sig .tc := ⟨.hbm, 152, rfl⟩
abbrev main_v110 : Ref sig .tc := ⟨.hbm, 153, rfl⟩
abbrev main_c_24 : Ref sig .tc := ⟨.hbm, 154, rfl⟩
abbrev main_v111 : Ref sig .tc := ⟨.hbm, 155, rfl⟩
abbrev main_v112 : Ref sig .tc := ⟨.hbm, 156, rfl⟩
abbrev main_c_25 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_c_26 : Ref sig .tc := ⟨.hbm, 163, rfl⟩
abbrev main_v118 : Ref sig .tc := ⟨.hbm, 164, rfl⟩
abbrev main_v119 : Ref sig .tc := ⟨.hbm, 165, rfl⟩
abbrev main_c_27 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_c_28 : Ref sig .tc := ⟨.hbm, 175, rfl⟩
abbrev main_v128 : Ref sig .tc := ⟨.hbm, 176, rfl⟩
abbrev main_v129 : Ref sig .tc := ⟨.hbm, 177, rfl⟩
abbrev main_c_29 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_cst_30 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_call5_cst : Ref sig .tc := ⟨.hbm, 193, rfl⟩
abbrev main_call5_v0 : Ref sig .tc := ⟨.hbm, 194, rfl⟩
abbrev main_v143 : Ref sig .tc := ⟨.hbm, 195, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S50000x32_S32x16_S50000x16_1_0_0_1_n_n_wf : DotDims.WF S50000x32 S32x16 S50000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S50000x32_S32x16_S50000x16_1_0_0_1_n_n : DotDims S50000x32 S32x16 S50000x16 where
  lhsContracting := [1]
  rhsContracting := [0]
  lhsNonContracting := [0]
  rhsNonContracting := [1]
  lhsBatch := []
  rhsBatch := []
  wf := dot_S50000x32_S32x16_S50000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

class Facts : Prop extends Facts₀ where

variable [Facts]
-- ==== Proof.KernelRun.lean ====
import proofs.«106770_j28578712388230_1_alg».proof.Proof.Gen.KernelIdeal.Frame

/-!
  The whole program's run, with the result read.

  The program is a line of host stretches and six kernel regions. Its buffer contents at each boundary are a fold
  from the launch memory: a host stretch applies its operations, a region replaces its three arrays by what its
  write-backs leave and keeps every other buffer. Every weakly fair execution terminates, without a fault, in a state
  whose unscoped buffers hold the last boundary's contents; so any property of those contents is a property of every
  final state. Two instances are stated: the result buffer together with the ten argument arrays.
-/

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and whatever holds of a memory whose
    unscoped buffers are, on every core, the contents at the last boundary of the fold holds of the final state. -/
theorem ends_at_last_boundary {Q : PUnit × MemSt nD τ sig (Elt F) → Prop}
    (hQ : ∀ s : MemSt nD τ sig (Elt F),
      (∀ c : Dev nD, ∀ b ∈ Pipeline.ucRefs τ sig, s.mem (((c : Thread nD τ)).1, b) = W18 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := hQ)

/-- The result buffer ends at the last boundary's contents, and the ten argument arrays end as launched. -/
theorem result_and_arguments : θ_run defs (onTc (τ := τ) (main (F := F))) ⟨m, fun _ => 0, ρ⟩ (fun r => ∀ c : Dev nD,
      r.2.mem ((c.tc : Thread nD τ).loc main_v137) = W18 m ρ c (Proc.devRef .tc main_v137)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  ends_at_last_boundary m ρ (fun s h c =>
      ⟨h c _ (mem_uc main_v137 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c)⟩)

end Cert.KernelIdeal.WholeRun

end
-- ==== Proof.Matmul4.lean ====
import proofs.«106770_j28578712388230_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! The third layer's matrix product, read off the row-blocked kernel.

The output array [50000, 16] is written in 25 row blocks of 2000 rows. At grid point t the body multiplies rows
2000·t … 2000·t + 1999 of the lhs array [50000, 32] by the whole weight array [32, 16]: entry (r, c) of the block is
∑ k < 32, lhs (2000·t + r, k) · w (k, c), which depends on one row of the lhs and one column of the weights. On exact
values the rounding of both operands to bf16 is the identity and the accumulator starts at zero, so block t of the
output is block t of the plain product x · w; the 25 blocks tile the array, so the array after the run is x · w. -/

set_option maxRecDepth 16384

noncomputable section

namespace Cert.KernelIdeal.Matmul4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- the lhs entry of row (i 0) at contraction position k -/
abbrev rowAt (i : S50000x16.Idx) (k : Fin 32) : S50000x32.Idx := fun a => match a with
  | ⟨0, _⟩ => ⟨(i 0).val, (i 0).isLt⟩
  | ⟨1, _⟩ => ⟨k.val, k.isLt⟩
/-- the rhs entry of column (i 1) at contraction position k -/
abbrev colAt (i : S50000x16.Idx) (k : Fin 32) : S32x16.Idx := fun a => match a with
  | ⟨0, _⟩ => ⟨k.val, k.isLt⟩
  | ⟨1, _⟩ => ⟨(i 1).val, (i 1).isLt⟩
/-- the plain matrix product x · w, entry by entry -/
def product (x : Vec Ideal S50000x32 .f32) (w : Vec Ideal S32x16 .f32) : Vec Ideal S50000x16 .f32 :=
  fun i => ∑ k : Fin 32, x (rowAt i k) * w (colAt i k)

/-- inside one row block: the lhs entry of block row (j 0) at contraction position k -/
abbrev blkRow (j : S2000x16.Idx) (k : Fin 32) : S2000x32.Idx := fun a => match a with
  | ⟨0, _⟩ => ⟨(j 0).val, (j 0).isLt⟩
  | ⟨1, _⟩ => ⟨k.val, k.isLt⟩
/-- inside one row block: the rhs entry of column (j 1) at contraction position k -/
abbrev blkCol (j : S2000x16.Idx) (k : Fin 32) : S32x16.Idx := fun a => match a with
  | ⟨0, _⟩ => ⟨k.val, k.isLt⟩
  | ⟨1, _⟩ => ⟨(j 1).val, (j 1).isLt⟩

theorem lhs_axis0 (j : S2000x16.Idx) (q : dot_S2000x32_S32x16_S2000x16_1_0_0_1_n_n.contr.Idx) :
    (dot_S2000x32_S32x16_S2000x16_1_0_0_1_n_n.lhsIdx j q 0).val = (j 0).val := by
  unfold DotDims.lhsIdx
  rw [dif_neg (show ¬(0 : Fin S2000x32.rank) ∈ dot_S2000x32_S32x16_S2000x16_1_0_0_1_n_n.lhsBatch by decide), dif_pos (show (0 : Fin S2000x32.rank) ∈ dot_S2000x32_S32x16_S2000x16_1_0_0_1_n_n.lhsNonContracting by decide)]
  rfl
theorem lhs_axis1 (j : S2000x16.Idx) (q : dot_S2000x32_S32x16_S2000x16_1_0_0_1_n_n.contr.Idx) :
    (dot_S2000x32_S32x16_S2000x16_1_0_0_1_n_n.lhsIdx j q 1).val = (q ⟨0, by decide⟩).val :=
  dot_S2000x32_S32x16_S2000x16_1_0_0_1_n_n.lhsIdx_val_of_single rfl j q
theorem rhs_axis0 (j : S2000x16.Idx) (q : dot_S2000x32_S32x16_S2000x16_1_0_0_1_n_n.contr.Idx) :
    (dot_S2000x32_S32x16_S2000x16_1_0_0_1_n_n.rhsIdx j q 0).val = (q ⟨0, by decide⟩).val :=
  dot_S2000x32_S32x16_S2000x16_1_0_0_1_n_n.rhsIdx_val_of_single rfl j q
theorem rhs_axis1 (j : S2000x16.Idx) (q : dot_S2000x32_S32x16_S2000x16_1_0_0_1_n_n.contr.Idx) :
    (dot_S2000x32_S32x16_S2000x16_1_0_0_1_n_n.rhsIdx j q 1).val = (j 1).val := by
  unfold DotDims.rhsIdx
  rw [dif_neg (show ¬(1 : Fin S32x16.rank) ∈ dot_S2000x32_S32x16_S2000x16_1_0_0_1_n_n.rhsBatch by decide), dif_pos (show (1 : Fin S32x16.rank) ∈ dot_S2000x32_S32x16_S2000x16_1_0_0_1_n_n.rhsNonContracting by decide)]
  rfl

set_option maxHeartbeats 400000 in
/-- The body's payload on one pair of loaded blocks, entry by entry: the rounding to bf16 is the identity on exact
    values and the accumulator is zero, so entry j is the sum over the 32 contraction positions. -/
theorem payload_apply (x0 : Vec Ideal S2000x32 .f32) (x1 : Vec Ideal S32x16 .f32) (j : S2000x16.Idx) :
    k4_pay1 (F := Ideal) x0 x1 j = ∑ k : Fin 32, x0 (blkRow j k) * x1 (blkCol j k) := by
  unfold k4_pay1
  simp only [matmul]
  rw [Ideal.matmul_constant_zero_apply, ← Equiv.sum_comp (ValueIdx.contrEquiv1 dot_S2000x32_S32x16_S2000x16_1_0_0_1_n_n 32 rfl rfl).symm]
  refine Finset.sum_congr rfl fun k _ => ?_
  have hk := ValueIdx.contrEquiv1_symm_val dot_S2000x32_S32x16_S2000x16_1_0_0_1_n_n 32 rfl rfl k
  have el : dot_S2000x32_S32x16_S2000x16_1_0_0_1_n_n.lhsIdx j ((ValueIdx.contrEquiv1 dot_S2000x32_S32x16_S2000x16_1_0_0_1_n_n 32 rfl rfl).symm k) = blkRow j k := funext fun a => Fin.ext (by
    match a with
    | ⟨0, _⟩ => exact lhs_axis0 _ _
    | ⟨1, _⟩ => exact (lhs_axis1 _ _).trans hk)
  have er : dot_S2000x32_S32x16_S2000x16_1_0_0_1_n_n.rhsIdx j ((ValueIdx.contrEquiv1 dot_S2000x32_S32x16_S2000x16_1_0_0_1_n_n 32 rfl rfl).symm k) = blkCol j k := funext fun a => Fin.ext (by
    match a with
    | ⟨0, _⟩ => exact (rhs_axis0 _ _).trans hk
    | ⟨1, _⟩ => exact rhs_axis1 _ _)
  rw [ValueIdx.truncf_apply, ValueIdx.truncf_apply, shapeCast_self, el, er]

theorem zero_offsets : (![0, 0] : Fin 2 → Nat) = fun _ => 0 := funext fun a => by fin_cases a <;> rfl

/-- The index maps over the 25 grid points: the lhs window and the output window sit at row block t, column block 0;
    the weight window always at block (0, 0). -/
theorem block_indices : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

set_option maxHeartbeats 400000 in
/-- The lhs window's block at point t is rows 2000·t … 2000·t + 1999 of the lhs array. -/
theorem lhs_block_apply (V : (c : Dev nD) → (b : Ref sig .tc) → Buf (Elt Ideal) ((c : Thread nD τ).loc b)) (c : Dev nD)
    (t : Fin cfg4.N) (y : S2000x32.Idx) (i : S50000x32.Idx)
    (h0 : (i 0).val = t.val * 2000 + (y 0).val) (h1 : (i 1).val = (y 1).val) :
    (iblk4 (F := Ideal) V c 0 t : Vec Ideal S2000x32 .f32) y = (V c main_v91 : Vec Ideal S50000x32 .f32) i := by
  obtain ⟨e0, e1, -, -, -, -⟩ := block_indices t
  unfold iblk4
  rw [View.read_apply]
  show V c main_v91 (((cfg4.win 0).blk t).view.emb y) = V c main_v91 i
  refine congrArg (V c main_v91) ?_
  funext a; apply Fin.ext
  match a with
  | ⟨0, _⟩ => show win4_0.index t (0 : Fin 2) * 2000 + 1 * (y 0).val = (i 0).val; omega
  | ⟨1, _⟩ => show win4_0.index t (1 : Fin 2) * 32 + 1 * (y 1).val = (i 1).val; omega

set_option maxHeartbeats 400000 in
/-- The weight window's block at every point is the whole weight array. -/
theorem rhs_block_apply (V : (c : Dev nD) → (b : Ref sig .tc) → Buf (Elt Ideal) ((c : Thread nD τ).loc b)) (c : Dev nD)
    (t : Fin cfg4.N) (y : S32x16.Idx) (i : S32x16.Idx)
    (h0 : (i 0).val = (y 0).val) (h1 : (i 1).val = (y 1).val) :
    (iblk4 (F := Ideal) V c 1 t : Vec Ideal S32x16 .f32) y = (V c main_arg8 : Vec Ideal S32x16 .f32) i := by
  obtain ⟨-, -, e2, e3, -, -⟩ := block_indices t
  unfold iblk4
  rw [View.read_apply]
  show V c main_arg8 (((cfg4.win 1).blk t).view.emb y) = V c main_arg8 i
  refine congrArg (V c main_arg8) ?_
  funext a; apply Fin.ext
  match a with
  | ⟨0, _⟩ => show win4_1.index t (0 : Fin 2) * 32 + 1 * (y 0).val = (i 0).val; omega
  | ⟨1, _⟩ => show win4_1.index t (1 : Fin 2) * 16 + 1 * (y 1).val = (i 1).val; omega

set_option maxHeartbeats 400000 in
/-- Where an entry of the output window's block at point t sits in the output array. -/
theorem out_block_emb (t : Fin cfg4.N) (y : S2000x16.Idx) :
    ((((cfg4.win 2).blk t).view.emb y : S50000x16.Idx) 0).val = t.val * 2000 + (y 0).val
    ∧ ((((cfg4.win 2).blk t).view.emb y : S50000x16.Idx) 1).val = (y 1).val := by
  obtain ⟨-, -, -, -, e4, e5⟩ := block_indices t
  constructor
  · show win4_2.index t (0 : Fin 2) * 2000 + 1 * (y 0).val = _; omega
  · show win4_2.index t (1 : Fin 2) * 16 + 1 * (y 1).val = _; omega

set_option maxHeartbeats 400000 in
/-- What point t writes back is block t of the product of the two arrays as the region finds them. -/
theorem flushed_eq (V : (c : Dev nD) → (b : Ref sig .tc) → Buf (Elt Ideal) ((c : Thread nD τ).loc b)) (c : Dev nD)
    (t : Fin cfg4.N) :
    (dat4 (F := Ideal) V c).flushed 2 t
      = ((cfg4.win 2).blk t).view.read (Elt Ideal) (product (V c main_v91) (V c main_arg8)) := by
  show (cfg4.win 2).cut (grid4.coords t) ((dat4 (F := Ideal) V c).after 2 t) = _
  rw [after4_2]
  unfold out4_2
  rw [View.canon_unit_zero zero_offsets]
  simp only [View.ld_unit_zero (S := S2000x32) zero_offsets, View.ld_unit_zero (S := S32x16) zero_offsets]
  have entry : ∀ y : S2000x16.Idx, k4_pay1 (F := Ideal) (iblk4 V c 0 t) (iblk4 V c 1 t) y
      = product (V c main_v91) (V c main_arg8) (((cfg4.win 2).blk t).view.emb y) := by
    intro y
    refine (payload_apply _ _ y).trans ?_
    obtain ⟨p0, p1⟩ := out_block_emb t y
    exact Finset.sum_congr rfl fun k _ => congrArg₂ (· * ·)
      (lhs_block_apply V c t (blkRow y k) (rowAt (((cfg4.win 2).blk t).view.emb y) k) p0 rfl)
      (rhs_block_apply V c t (blkCol y k) (colAt (((cfg4.win 2).blk t).view.emb y) k) rfl p1)
  funext j
  exact entry j

/-- An index of the output array is in point t's block iff each coordinate is in the block's range on its axis. -/
theorem mem_block (t : Fin cfg4.N) (i : S50000x16.Idx) :
    i ∈ ((cfg4.win 2).blk t).view.set ↔ ∀ a : Fin 2, win4_2.index t a * S2000x16.size a ≤ (i a).val
      ∧ (i a).val < win4_2.index t a * S2000x16.size a + S2000x16.size a := by
  show i ∈ ((View.whole main_v122).slice (win4_2.rect t)).set ↔ _
  rw [View.set_slice_whole, Rect.mem_set_unit]
  exact Iff.rfl

set_option maxHeartbeats 400000 in
/-- The 25 row blocks tile the output array: row r lies in the block of point r / 2000. -/
theorem cover (i : S50000x16.Idx) :
    ∃ t : Fin cfg4.N, (cfg4.win 2).flush t = true ∧ i ∈ ((cfg4.win 2).blk t).view.set := by
  have hi0 : (i 0).val < 50000 := (i 0).isLt
  have hi1 : (i 1).val < 16 := (i 1).isLt
  have hN : cfg4.N = 25 := N_4
  obtain ⟨t, ht⟩ : ∃ t : Fin cfg4.N, t.val = (i 0).val / 2000 := ⟨⟨(i 0).val / 2000, by rw [hN]; omega⟩, rfl⟩
  obtain ⟨-, -, -, -, e4, e5⟩ := block_indices t
  refine ⟨t, flush4_2 t, ?_⟩
  rw [mem_block]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 16 ≤ (i 1).val ∧ (i 1).val < win4_2.index t (1 : Fin 2) * 16 + 16; omega

/-- The output array after the 25 points is the product of the two arrays as the region finds them. -/
theorem array_eq (V : (c : Dev nD) → (b : Ref sig .tc) → Buf (Elt Ideal) ((c : Thread nD τ).loc b)) (c : Dev nD) :
    (dat4 (F := Ideal) V c).arrAt 2 cfg4.N = product (V c main_v91) (V c main_arg8) :=
  (dat4 (F := Ideal) V c).arrAt_eq_of_cover 2 (product (V c main_v91) (V c main_arg8))
    (fun t _ => flushed_eq V c t) cover

end Cert.KernelIdeal.Matmul4

end
-- ==== Proof.BiasRelu5.lean ====
import proofs.«106770_j28578712388230_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! # Bias and cut-off at zero on the [50000, 16] features

The region adds the one bias row b : [1, 16] to every row of x : [50000, 16] and replaces what is below zero
by zero: entry (r, q) of the result is max (x (r, q) + b (0, q)) 0. The rows are worked through in 25 blocks
of 2000 rows; block t reads rows 2000 t … 2000 t + 1999 of x and the whole of b, and writes the same rows of
the result. This file reads the stored block at an index, places the blocks in the array, and concludes that
the result array is the function `shifted` of the two arrays the region reads. -/

set_option maxRecDepth 16384

noncomputable section

namespace Cert.KernelIdeal.BiasRelu5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## The result, entry by entry -/

/-- the bias entry that column (i 1) of the row adds -/
abbrev biasAt (i : S50000x16.Idx) : S1x16.Idx := fun a => match a with
  | ⟨0, _⟩ => ⟨0, Nat.one_pos⟩
  | ⟨1, _⟩ => ⟨(i 1).val, (i 1).isLt⟩

/-- every row of x plus the bias row, cut off below at zero -/
def shifted (x : Vec Ideal S50000x16 .f32) (b : Vec Ideal S1x16 .f32) : Vec Ideal S50000x16 .f32 :=
  fun i => (FloatOps.maximumf (FloatOps.addf (x i) (b (biasAt i))) (Scalar.ofBits .f32 0x00000000#32) : Ideal .f32)

/-- `shifted` at an index, spelled out. -/
theorem shifted_def (x : Vec Ideal S50000x16 .f32) (b : Vec Ideal S1x16 .f32) (i : S50000x16.Idx) :
    shifted x b i = (FloatOps.maximumf (FloatOps.addf (x i) (b (biasAt i))) (Scalar.ofBits .f32 0x00000000#32) : Ideal .f32) := rfl

/-- One entry of `shifted` from the entries of the two arrays it reads, the two indices given up to equality. -/
theorem shifted_of_entries (X : Vec Ideal S50000x16 .f32) (B : Vec Ideal S1x16 .f32) (i0 i : S50000x16.Idx) (k : S1x16.Idx)
    (h0 : i0 = i) (h1 : k = biasAt i) :
    (FloatOps.maximumf (FloatOps.addf (X i0) (B k)) (Scalar.ofBits .f32 0x00000000#32) : Ideal .f32) = shifted X B i := by
  subst h0 h1; rfl

/-! ## One block of 2000 rows -/

/-- inside one block of rows: the entry of the bias block that column (j 1) adds -/
abbrev biasIn (j : S2000x16.Idx) : S1x16.Idx := fun a => match a with
  | ⟨0, _⟩ => ⟨0, Nat.one_pos⟩
  | ⟨1, _⟩ => ⟨(j 1).val, (j 1).isLt⟩

/-- The stored value at an index of the block: the row's entry plus the bias entry of its column, cut off
    below at zero. The two shape casts keep the shape, so they are identities; the broadcast [1, 16] → [2000, 16]
    repeats the one bias row, so at (p, q) it reads the bias at (0, q). -/
theorem stored_apply (x0 : Vec Ideal S2000x16 .f32) (x1 : Vec Ideal S1x16 .f32) (j : S2000x16.Idx) :
    k5_pay1 (F := Ideal) x0 x1 j
      = (FloatOps.maximumf (FloatOps.addf (x0 j) (x1 (biasIn j))) (Scalar.ofBits .f32 0x00000000#32) : Ideal .f32) := by
  unfold k5_pay1
  show (FloatOps.maximumf (FloatOps.addf (shapeCast S2000x16 x0 shapeCasts_S2000x16_S2000x16 j)
      (broadcastTo S2000x16 (shapeCast S1x16 x1 shapeCasts_S1x16_S1x16) broadcasts_S1x16_S2000x16 j))
      (Scalar.ofBits .f32 0x00000000#32) : Ideal .f32) = _
  rw [shapeCast_self, shapeCast_self]
  rw [broadcastTo_apply x1 broadcasts_S1x16_S2000x16 j (biasIn j) (fun a => by
        match a with
        | ⟨0, _⟩ => rfl
        | ⟨1, _⟩ => rfl)]

/-! ## Where the blocks sit in the arrays -/

/-- The body loads and stores whole blocks: the offset of each access is the origin. -/
theorem origin : (![0, 0] : Fin 2 → Nat) = fun _ => 0 := funext fun a => by fin_cases a <;> rfl

/-- The block-index maps over the 25 grid points: at point t the block of x and the block of the result are
    row block t in the one column block; the bias is its one block at every point. -/
theorem block_indices : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

section AtEntry

-- the buffer contents when the region is entered
variable (V : (c : Dev nD) → (b : Ref sig .tc) → Buf (Elt Ideal) ((c : Thread nD τ).loc b))

/-- An entry of the block of x at point t is the entry of x under it. -/
theorem rows_apply (c : Dev nD) (t : Fin cfg5.N) (j : S2000x16.Idx) :
    (iblk5 V c 0 t : Vec Ideal S2000x16 .f32) j = V c main_v135 (((cfg5.win 0).blk t).view.emb j) := rfl

/-- An entry of the bias block at point t is the entry of the bias under it. -/
theorem bias_apply (c : Dev nD) (t : Fin cfg5.N) (k : S1x16.Idx) :
    (iblk5 V c 1 t : Vec Ideal S1x16 .f32) k = V c main_v136 (((cfg5.win 1).blk t).view.emb k) := rfl

/-- An entry of the result's block at point t, read off a whole array, is the array's entry under it. -/
theorem result_apply (t : Fin cfg5.N) (G : Vec Ideal S50000x16 .f32) (j : S2000x16.Idx) :
    (((cfg5.win 2).blk t).view.read (Elt Ideal) G : Vec Ideal S2000x16 .f32) j = G (((cfg5.win 2).blk t).view.emb j) := rfl

/-- WHAT POINT t WRITES BACK is block t of `shifted` of the two arrays as the region finds them: row p of the
    block is row 2000 t + p of x and of the result, and the bias block is the bias itself. -/
theorem written_block (c : Dev nD) (t : Fin cfg5.N) :
    (dat5 (F := Ideal) V c).flushed 2 t
      = ((cfg5.win 2).blk t).view.read (Elt Ideal) (shifted (V c main_v135) (V c main_v136)) := by
  show (cfg5.win 2).cut (grid5.coords t) ((dat5 V c).after 2 t) = _
  rw [after5_2]
  unfold out5_2
  rw [View.canon_unit_zero origin]
  simp only [View.ld_unit_zero (S := S2000x16) origin, View.ld_unit_zero (S := S1x16) origin]
  obtain ⟨e0, e1, e2, e3, e4, e5⟩ := block_indices t
  funext j
  refine (stored_apply (iblk5 V c 0 t) (iblk5 V c 1 t) j).trans ?_
  refine ((congrArg₂ (fun (u v : Ideal .f32) =>
      (FloatOps.maximumf (FloatOps.addf u v) (Scalar.ofBits .f32 0x00000000#32) : Ideal .f32))
    (rows_apply V c t j) (bias_apply V c t (biasIn j))).trans ?_).trans
      (result_apply t (shifted (V c main_v135) (V c main_v136)) j).symm
  refine shifted_of_entries (V c main_v135) (V c main_v136) _ _ _ ?_ ?_
  · -- the row of x read is the row of the result written
    funext a; apply Fin.ext
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 16 + 1 * (j 1).val = win5_2.index t (1 : Fin 2) * 16 + 1 * (j 1).val; omega
  · -- the bias entry read is the one of the written entry's column
    funext a; apply Fin.ext
    match a with
    | ⟨0, _⟩ => show win5_1.index t (0 : Fin 2) * 1 + 1 * 0 = 0; omega
    | ⟨1, _⟩ => show win5_1.index t (1 : Fin 2) * 16 + 1 * (j 1).val = win5_2.index t (1 : Fin 2) * 16 + 1 * (j 1).val; omega

end AtEntry

/-! ## The blocks tile the array -/

/-- An index of the result is in point t's block iff each coordinate is in the block's range on its axis. -/
theorem mem_block (t : Fin cfg5.N) (i : S50000x16.Idx) :
    i ∈ ((cfg5.win 2).blk t).view.set ↔ ∀ a : Fin 2, win5_2.index t a * S2000x16.size a ≤ (i a).val
      ∧ (i a).val < win5_2.index t a * S2000x16.size a + S2000x16.size a := by
  show i ∈ ((View.whole main_v137).slice (win5_2.rect t)).set ↔ _
  rw [View.set_slice_whole, Rect.mem_set_unit]
  exact Iff.rfl

/-- Row r of the result lies in the block of point r / 2000: the 25 blocks of 2000 rows tile the 50000 rows. -/
theorem rows_covered (i : S50000x16.Idx) :
    ∃ t : Fin cfg5.N, (cfg5.win 2).flush t = true ∧ i ∈ ((cfg5.win 2).blk t).view.set := by
  have hi0 : (i 0).val < 50000 := (i 0).isLt
  have hi1 : (i 1).val < 16 := (i 1).isLt
  have hN : cfg5.N = 25 := N_5
  have ht : (i 0).val / 2000 < cfg5.N := by rw [hN]; omega
  obtain ⟨t, htv⟩ : ∃ t : Fin cfg5.N, t.val = (i 0).val / 2000 := ⟨⟨_, ht⟩, rfl⟩
  obtain ⟨-, -, -, -, e4, e5⟩ := block_indices t
  refine ⟨t, flush5_2 t, ?_⟩
  rw [mem_block]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 16 ≤ (i 1).val ∧ (i 1).val < win5_2.index t (1 : Fin 2) * 16 + 16; omega

/-! ## The result array -/

/-- THE ARRAY after the region: every row of x plus the bias row, cut off below at zero. -/
theorem array_eq (V : (c : Dev nD) → (b : Ref sig .tc) → Buf (Elt Ideal) ((c : Thread nD τ).loc b)) (c : Dev nD) :
    (dat5 (F := Ideal) V c).arrAt 2 cfg5.N = shifted (V c main_v135) (V c main_v136) :=
  (dat5 (F := Ideal) V c).arrAt_eq_of_cover 2 (shifted (V c main_v135) (V c main_v136))
    (fun t _ => written_block V c t) rows_covered

end Cert.KernelIdeal.BiasRelu5

end
-- ==== Proof.Bridge3.lean ====
import proofs.«106770_j28578712388230_1_alg».proof.Proof.RefRead
import proofs.«106770_j28578712388230_1_alg».proof.Proof.Matmul4
import proofs.«106770_j28578712388230_1_alg».proof.Proof.BiasRelu5
import Idealize.ShloMosaic.Lib.Pipeline.Value
import Idealize.ShloMosaic.Lib.ValueIdx

/-! The reference's third layer, stage by stage, against the two whole-array functions of the kernel side.

The reference computes the layer as a `dot_general` x · w of a [50000, 32] array with the [32, 16] weights, and later adds the
bias b : [16] (broadcast first to [1, 16], then along the 50000 rows) and takes the maximum with zero. Read at an entry
(r, c) the first is ∑ k < 32, x (r, k) · w (k, c): the same sum, over the same two index functions, as the kernel
side's `product`. The second is max (y (r, c) + b (c)) 0, and the kernel side's `shifted` reads the same bias entry
through the reshape [16] → [1, 16], whose entry (0, c) is b (c). -/

noncomputable section

namespace Cert.KernelIdeal.Bridge3

open Cert.KernelIdeal Idealize.ShloMosaic

/-- The reference's `dot_general` on any lhs is the plain matrix product, entry by entry: its sum over the one
    contraction axis, re-indexed by the position k < 32, reads lhs (r, k) and w (k, c). -/
theorem product_eq (y : Vec Ideal S50000x32 .f32) (w : Vec Ideal S32x16 .f32) :
    Host.dotGeneral (F := Ideal) (φ₁ := .f32) (φ₂ := .f32) Cert.ReferenceIdeal.dot_S50000x32_S32x16_S50000x16_1_0_0_1_n_n none y w = Matmul4.product y w := by
  funext i
  simp only [Host.dotGeneral]
  rw [Ideal.dotGeneral_apply, ← Equiv.sum_comp (ValueIdx.contrEquiv1 Cert.ReferenceIdeal.dot_S50000x32_S32x16_S50000x16_1_0_0_1_n_n 32 rfl rfl).symm]
  refine Finset.sum_congr rfl fun k _ => ?_
  have hk := ValueIdx.contrEquiv1_symm_val Cert.ReferenceIdeal.dot_S50000x32_S32x16_S50000x16_1_0_0_1_n_n 32 rfl rfl k
  have el : Cert.ReferenceIdeal.dot_S50000x32_S32x16_S50000x16_1_0_0_1_n_n.lhsIdx i ((ValueIdx.contrEquiv1 Cert.ReferenceIdeal.dot_S50000x32_S32x16_S50000x16_1_0_0_1_n_n 32 rfl rfl).symm k) = Matmul4.rowAt i k := funext fun a => Fin.ext (by
    match a with
    | ⟨0, _⟩ => exact Cert.ReferenceIdeal.ReadP.lhs_main_v126_0 _ _
    | ⟨1, _⟩ => exact (Cert.ReferenceIdeal.ReadP.lhs_main_v126_1 _ _).trans hk)
  have er : Cert.ReferenceIdeal.dot_S50000x32_S32x16_S50000x16_1_0_0_1_n_n.rhsIdx i ((ValueIdx.contrEquiv1 Cert.ReferenceIdeal.dot_S50000x32_S32x16_S50000x16_1_0_0_1_n_n 32 rfl rfl).symm k) = Matmul4.colAt i k := funext fun a => Fin.ext (by
    match a with
    | ⟨0, _⟩ => exact (Cert.ReferenceIdeal.ReadP.rhs_main_v126_0 _ _).trans hk
    | ⟨1, _⟩ => exact Cert.ReferenceIdeal.ReadP.rhs_main_v126_1 _ _)
  rw [el, er]

/-- The reference's stage itself: the product of the previous layer's result with the weights. -/
theorem stage_eq (x0 : Vec Ideal S50000x64 .f32) (x1 x2 : IVec S2x800000 32) (x4 : Vec Ideal S64x64 .f32) (x5 : Vec Ideal S64 .f32) (x6 : Vec Ideal S64x32 .f32) (x7 : Vec Ideal S32 .f32) (x8 : Vec Ideal S32x16 .f32) :
    Cert.ReferenceIdeal.ReadP.val_main_v126 (F := Ideal) x0 x1 x2 x4 x5 x6 x7 x8 = Matmul4.product (Cert.ReferenceIdeal.ReadP.val_main_v95 (F := Ideal) x0 x1 x2 x4 x5 x6 x7) x8 :=
  product_eq _ _

/-- The bias entry both sides add at an index: the reshape [16] → [1, 16] read at (0, c) is b (c), which is where the
    reference's two broadcasts read. -/
theorem bias_entry (b : Vec Ideal S16 .f32) (h : S16.ShapeCasts S1x16) (i : S50000x16.Idx) :
    b (Cert.ReferenceIdeal.ReadP.idx_main_v140 (Cert.ReferenceIdeal.ReadP.idx_main_v141 i)) = shapeCast S1x16 b h (BiasRelu5.biasAt i) := by
  refine ((shapeCast_addUnit_apply ![16] b h (BiasRelu5.biasAt i)).trans (congrArg b ?_)).symm
  funext a
  match a with
  | ⟨0, _⟩ => rfl

/-- The reference's bias-and-maximum stage is `shifted` of the stage before it and the bias row. -/
theorem shifted_eq (x0 : Vec Ideal S50000x64 .f32) (x1 x2 x3 : IVec S2x800000 32) (x4 : Vec Ideal S64x64 .f32) (x5 : Vec Ideal S64 .f32) (x6 : Vec Ideal S64x32 .f32) (x7 : Vec Ideal S32 .f32) (x8 : Vec Ideal S32x16 .f32) (x9 : Vec Ideal S16 .f32) (h : S16.ShapeCasts S1x16) :
    Cert.ReferenceIdeal.ReadP.val_main_v143 (F := Ideal) x0 x1 x2 x3 x4 x5 x6 x7 x8 x9
      = BiasRelu5.shifted (Cert.ReferenceIdeal.ReadP.val_main_v139 (F := Ideal) x0 x1 x2 x3 x4 x5 x6 x7 x8) (shapeCast S1x16 x9 h) := by
  funext i
  rw [Cert.ReferenceIdeal.ReadP.val_main_v143_apply, Cert.ReferenceIdeal.ReadP.val_main_v142_apply, Cert.ReferenceIdeal.ReadP.val_main_v141_apply, Cert.ReferenceIdeal.ReadP.val_main_v140_apply, Cert.ReferenceIdeal.ReadP.val_main_call5_v0_apply, Cert.ReferenceIdeal.ReadP.val_main_call5_cst_apply,
    BiasRelu5.shifted_def, bias_entry x9 h i]

end Cert.KernelIdeal.Bridge3

end
-- ==== Proof.ArgsKept.lean ====
import proofs.«106770_j28578712388230_1_alg».proof.Proof.Gen.KernelIdeal.Frame
import Idealize.ShloMosaic.PureOps.Ideal
import Idealize.ShloMosaic.Lib.StableHlo.Run

set_option maxRecDepth 16384

noncomputable section

namespace Cert.KernelIdeal.Args

open Cert.KernelIdeal Cert.KernelIdeal.Gen
open Idealize.ShloMosaic Idealize.ShloMosaic.TcCoe Idealize.SL.Sem Idealize.ShloMosaic.StableHlo

/-! # The argument arrays are still the launch contents where they are read

The buffer contents at the boundaries between the stretches of host operations and the regions are a fold from the
launch memory. No host operation and no region writes an argument array — a region only reads one, through an input
window, or does not touch it —, so the fold at an argument's buffer walks back to the launch memory. Each argument is
followed up to the boundary at which the program reads it. -/

/-! ## A stretch of host operations writes no argument

At ANY contents `U` before the stretch: every operation of the stretch writes its own result buffer, which is none of
the arguments, so the argument's buffer after the stretch holds what it held before. -/

section Stretches

variable (U : Valuation τ sig (Elt Ideal))

/-! ### The host operations before the first region -/

theorem host0_arg0 : StableHlo.after hostOps0_2 (StableHlo.after hostOps0_1 (StableHlo.after hostOps0 U)) (Proc.devRef .tc main_arg0)
    = U (Proc.devRef .tc main_arg0) := by
  dsimp only [hostOps0, hostOps0_1, hostOps0_2]; after_results_simp

theorem host0_arg4 : StableHlo.after hostOps0_2 (StableHlo.after hostOps0_1 (StableHlo.after hostOps0 U)) (Proc.devRef .tc main_arg4)
    = U (Proc.devRef .tc main_arg4) := by
  dsimp only [hostOps0, hostOps0_1, hostOps0_2]; after_results_simp

theorem host0_arg5 : StableHlo.after hostOps0_2 (StableHlo.after hostOps0_1 (StableHlo.after hostOps0 U)) (Proc.devRef .tc main_arg5)
    = U (Proc.devRef .tc main_arg5) := by
  dsimp only [hostOps0, hostOps0_1, hostOps0_2]; after_results_simp

theorem host0_arg2 : StableHlo.after hostOps0_2 (StableHlo.after hostOps0_1 (StableHlo.after hostOps0 U)) (Proc.devRef .tc main_arg2)
    = U (Proc.devRef .tc main_arg2) := by
  dsimp only [hostOps0, hostOps0_1, hostOps0_2]; after_results_simp

theorem host0_arg6 : StableHlo.after hostOps0_2 (StableHlo.after hostOps0_1 (StableHlo.after hostOps0 U)) (Proc.devRef .tc main_arg6)
    = U (Proc.devRef .tc main_arg6) := by
  dsimp only [hostOps0, hostOps0_1, hostOps0_2]; after_results_simp

theorem host0_arg7 : StableHlo.after hostOps0_2 (StableHlo.after hostOps0_1 (StableHlo.after hostOps0 U)) (Proc.devRef .tc main_arg7)
    = U (Proc.devRef .tc main_arg7) := by
  dsimp only [hostOps0, hostOps0_1, hostOps0_2]; after_results_simp

theorem host0_arg3 : StableHlo.after hostOps0_2 (StableHlo.after hostOps0_1 (StableHlo.after hostOps0 U)) (Proc.devRef .tc main_arg3)
    = U (Proc.devRef .tc main_arg3) := by
  dsimp only [hostOps0, hostOps0_1, hostOps0_2]; after_results_simp

theorem host0_arg8 : StableHlo.after hostOps0_2 (StableHlo.after hostOps0_1 (StableHlo.after hostOps0 U)) (Proc.devRef .tc main_arg8)
    = U (Proc.devRef .tc main_arg8) := by
  dsimp only [hostOps0, hostOps0_1, hostOps0_2]; after_results_simp

theorem host0_arg9 : StableHlo.after hostOps0_2 (StableHlo.after hostOps0_1 (StableHlo.after hostOps0 U)) (Proc.devRef .tc main_arg9)
    = U (Proc.devRef .tc main_arg9) := by
  dsimp only [hostOps0, hostOps0_1, hostOps0_2]; after_results_simp

/-! ### The host operations between the first and the second region -/

theorem host1_arg2 : StableHlo.after hostOps1 U (Proc.devRef .tc main_arg2)
    = U (Proc.devRef .tc main_arg2) := by
  dsimp only [hostOps1]; after_results_simp

theorem host1_arg6 : StableHlo.after hostOps1 U (Proc.devRef .tc main_arg6)
    = U (Proc.devRef .tc main_arg6) := by
  dsimp only [hostOps1]; after_results_simp

theorem host1_arg7 : StableHlo.after hostOps1 U (Proc.devRef .tc main_arg7)
    = U (Proc.devRef .tc main_arg7) := by
  dsimp only [hostOps1]; after_results_simp

theorem host1_arg3 : StableHlo.after hostOps1 U (Proc.devRef .tc main_arg3)
    = U (Proc.devRef .tc main_arg3) := by
  dsimp only [hostOps1]; after_results_simp

theorem host1_arg8 : StableHlo.after hostOps1 U (Proc.devRef .tc main_arg8)
    = U (Proc.devRef .tc main_arg8) := by
  dsimp only [hostOps1]; after_results_simp

theorem host1_arg9 : StableHlo.after hostOps1 U (Proc.devRef .tc main_arg9)
    = U (Proc.devRef .tc main_arg9) := by
  dsimp only [hostOps1]; after_results_simp

/-! ### The host operations between the second and the third region -/

theorem host2_arg6 : StableHlo.after hostOps2_2 (StableHlo.after hostOps2_1 (StableHlo.after hostOps2 U)) (Proc.devRef .tc main_arg6)
    = U (Proc.devRef .tc main_arg6) := by
  dsimp only [hostOps2, hostOps2_1, hostOps2_2]; after_results_simp

theorem host2_arg7 : StableHlo.after hostOps2_2 (StableHlo.after hostOps2_1 (StableHlo.after hostOps2 U)) (Proc.devRef .tc main_arg7)
    = U (Proc.devRef .tc main_arg7) := by
  dsimp only [hostOps2, hostOps2_1, hostOps2_2]; after_results_simp

theorem host2_arg3 : StableHlo.after hostOps2_2 (StableHlo.after hostOps2_1 (StableHlo.after hostOps2 U)) (Proc.devRef .tc main_arg3)
    = U (Proc.devRef .tc main_arg3) := by
  dsimp only [hostOps2, hostOps2_1, hostOps2_2]; after_results_simp

theorem host2_arg8 : StableHlo.after hostOps2_2 (StableHlo.after hostOps2_1 (StableHlo.after hostOps2 U)) (Proc.devRef .tc main_arg8)
    = U (Proc.devRef .tc main_arg8) := by
  dsimp only [hostOps2, hostOps2_1, hostOps2_2]; after_results_simp

theorem host2_arg9 : StableHlo.after hostOps2_2 (StableHlo.after hostOps2_1 (StableHlo.after hostOps2 U)) (Proc.devRef .tc main_arg9)
    = U (Proc.devRef .tc main_arg9) := by
  dsimp only [hostOps2, hostOps2_1, hostOps2_2]; after_results_simp

/-! ### The host operations between the third and the fourth region -/

theorem host3_arg3 : StableHlo.after hostOps3 U (Proc.devRef .tc main_arg3)
    = U (Proc.devRef .tc main_arg3) := by
  dsimp only [hostOps3]; after_results_simp

theorem host3_arg8 : StableHlo.after hostOps3 U (Proc.devRef .tc main_arg8)
    = U (Proc.devRef .tc main_arg8) := by
  dsimp only [hostOps3]; after_results_simp

theorem host3_arg9 : StableHlo.after hostOps3 U (Proc.devRef .tc main_arg9)
    = U (Proc.devRef .tc main_arg9) := by
  dsimp only [hostOps3]; after_results_simp

/-! ### The host operations between the fourth and the fifth region -/

theorem host4_arg8 : StableHlo.after hostOps4_2 (StableHlo.after hostOps4_1 (StableHlo.after hostOps4 U)) (Proc.devRef .tc main_arg8)
    = U (Proc.devRef .tc main_arg8) := by
  dsimp only [hostOps4, hostOps4_1, hostOps4_2]; after_results_simp

theorem host4_arg9 : StableHlo.after hostOps4_2 (StableHlo.after hostOps4_1 (StableHlo.after hostOps4 U)) (Proc.devRef .tc main_arg9)
    = U (Proc.devRef .tc main_arg9) := by
  dsimp only [hostOps4, hostOps4_1, hostOps4_2]; after_results_simp

end Stretches

/-! ## Each argument, boundary by boundary, back to the launch

Across a region's exit a buffer that is none of the region's arrays holds what it held at the entry; across a stretch of
host operations an argument holds what it held before (the section above); at the launch the contents are the launch
memory. -/

variable (m : (ℓ : Loc nD τ sig) → Buf (Elt Ideal) ℓ) (ρ : Dev nD → PrngReg) (c : Dev nD)

/-! ### Argument 0, read at boundary 3 -/

theorem arg0_at3 : W3 (F := Ideal) m ρ c (Proc.devRef .tc main_arg0) = m ((c : Thread nD τ).loc main_arg0) :=
  host0_arg0 (W0 m ρ c)

/-! ### Argument 4, read at boundary 3 -/

theorem arg4_at3 : W3 (F := Ideal) m ρ c (Proc.devRef .tc main_arg4) = m ((c : Thread nD τ).loc main_arg4) :=
  host0_arg4 (W0 m ρ c)

/-! ### Argument 5, read at boundary 4 -/

theorem arg5_at3 : W3 (F := Ideal) m ρ c (Proc.devRef .tc main_arg5) = m ((c : Thread nD τ).loc main_arg5) :=
  host0_arg5 (W0 m ρ c)

theorem arg5_at4 : W4 (F := Ideal) m ρ c (Proc.devRef .tc main_arg5) = m ((c : Thread nD τ).loc main_arg5) :=
  (W4_of_ne m ρ c main_arg5 (by decide)).trans (arg5_at3 m ρ c)

/-! ### Argument 2, read at boundary 6 -/

theorem arg2_at3 : W3 (F := Ideal) m ρ c (Proc.devRef .tc main_arg2) = m ((c : Thread nD τ).loc main_arg2) :=
  host0_arg2 (W0 m ρ c)

theorem arg2_at4 : W4 (F := Ideal) m ρ c (Proc.devRef .tc main_arg2) = m ((c : Thread nD τ).loc main_arg2) :=
  (W4_of_ne m ρ c main_arg2 (by decide)).trans (arg2_at3 m ρ c)

theorem arg2_at5 : W5 (F := Ideal) m ρ c (Proc.devRef .tc main_arg2) = m ((c : Thread nD τ).loc main_arg2) :=
  (host1_arg2 (W4 m ρ c)).trans (arg2_at4 m ρ c)

theorem arg2_at6 : W6 (F := Ideal) m ρ c (Proc.devRef .tc main_arg2) = m ((c : Thread nD τ).loc main_arg2) :=
  (W6_of_ne m ρ c main_arg2 (by decide)).trans (arg2_at5 m ρ c)

/-! ### Argument 6, read at boundary 9 -/

theorem arg6_at3 : W3 (F := Ideal) m ρ c (Proc.devRef .tc main_arg6) = m ((c : Thread nD τ).loc main_arg6) :=
  host0_arg6 (W0 m ρ c)

theorem arg6_at4 : W4 (F := Ideal) m ρ c (Proc.devRef .tc main_arg6) = m ((c : Thread nD τ).loc main_arg6) :=
  (W4_of_ne m ρ c main_arg6 (by decide)).trans (arg6_at3 m ρ c)

theorem arg6_at5 : W5 (F := Ideal) m ρ c (Proc.devRef .tc main_arg6) = m ((c : Thread nD τ).loc main_arg6) :=
  (host1_arg6 (W4 m ρ c)).trans (arg6_at4 m ρ c)

theorem arg6_at6 : W6 (F := Ideal) m ρ c (Proc.devRef .tc main_arg6) = m ((c : Thread nD τ).loc main_arg6) :=
  (W6_of_ne m ρ c main_arg6 (by decide)).trans (arg6_at5 m ρ c)

theorem arg6_at9 : W9 (F := Ideal) m ρ c (Proc.devRef .tc main_arg6) = m ((c : Thread nD τ).loc main_arg6) :=
  (host2_arg6 (W6 m ρ c)).trans (arg6_at6 m ρ c)

/-! ### Argument 7, read at boundary 10 -/

theorem arg7_at3 : W3 (F := Ideal) m ρ c (Proc.devRef .tc main_arg7) = m ((c : Thread nD τ).loc main_arg7) :=
  host0_arg7 (W0 m ρ c)

theorem arg7_at4 : W4 (F := Ideal) m ρ c (Proc.devRef .tc main_arg7) = m ((c : Thread nD τ).loc main_arg7) :=
  (W4_of_ne m ρ c main_arg7 (by decide)).trans (arg7_at3 m ρ c)

theorem arg7_at5 : W5 (F := Ideal) m ρ c (Proc.devRef .tc main_arg7) = m ((c : Thread nD τ).loc main_arg7) :=
  (host1_arg7 (W4 m ρ c)).trans (arg7_at4 m ρ c)

theorem arg7_at6 : W6 (F := Ideal) m ρ c (Proc.devRef .tc main_arg7) = m ((c : Thread nD τ).loc main_arg7) :=
  (W6_of_ne m ρ c main_arg7 (by decide)).trans (arg7_at5 m ρ c)

theorem arg7_at9 : W9 (F := Ideal) m ρ c (Proc.devRef .tc main_arg7) = m ((c : Thread nD τ).loc main_arg7) :=
  (host2_arg7 (W6 m ρ c)).trans (arg7_at6 m ρ c)

theorem arg7_at10 : W10 (F := Ideal) m ρ c (Proc.devRef .tc main_arg7) = m ((c : Thread nD τ).loc main_arg7) :=
  (W10_of_ne m ρ c main_arg7 (by decide)).trans (arg7_at9 m ρ c)

/-! ### Argument 3, read at boundary 12 -/

theorem arg3_at3 : W3 (F := Ideal) m ρ c (Proc.devRef .tc main_arg3) = m ((c : Thread nD τ).loc main_arg3) :=
  host0_arg3 (W0 m ρ c)

theorem arg3_at4 : W4 (F := Ideal) m ρ c (Proc.devRef .tc main_arg3) = m ((c : Thread nD τ).loc main_arg3) :=
  (W4_of_ne m ρ c main_arg3 (by decide)).trans (arg3_at3 m ρ c)

theorem arg3_at5 : W5 (F := Ideal) m ρ c (Proc.devRef .tc main_arg3) = m ((c : Thread nD τ).loc main_arg3) :=
  (host1_arg3 (W4 m ρ c)).trans (arg3_at4 m ρ c)

theorem arg3_at6 : W6 (F := Ideal) m ρ c (Proc.devRef .tc main_arg3) = m ((c : Thread nD τ).loc main_arg3) :=
  (W6_of_ne m ρ c main_arg3 (by decide)).trans (arg3_at5 m ρ c)

theorem arg3_at9 : W9 (F := Ideal) m ρ c (Proc.devRef .tc main_arg3) = m ((c : Thread nD τ).loc main_arg3) :=
  (host2_arg3 (W6 m ρ c)).trans (arg3_at6 m ρ c)

theorem arg3_at10 : W10 (F := Ideal) m ρ c (Proc.devRef .tc main_arg3) = m ((c : Thread nD τ).loc main_arg3) :=
  (W10_of_ne m ρ c main_arg3 (by decide)).trans (arg3_at9 m ρ c)

theorem arg3_at11 : W11 (F := Ideal) m ρ c (Proc.devRef .tc main_arg3) = m ((c : Thread nD τ).loc main_arg3) :=
  (host3_arg3 (W10 m ρ c)).trans (arg3_at10 m ρ c)

theorem arg3_at12 : W12 (F := Ideal) m ρ c (Proc.devRef .tc main_arg3) = m ((c : Thread nD τ).loc main_arg3) :=
  (W12_of_ne m ρ c main_arg3 (by decide)).trans (arg3_at11 m ρ c)

/-! ### Argument 8, read at boundary 15 -/

theorem arg8_at3 : W3 (F := Ideal) m ρ c (Proc.devRef .tc main_arg8) = m ((c : Thread nD τ).loc main_arg8) :=
  host0_arg8 (W0 m ρ c)

theorem arg8_at4 : W4 (F := Ideal) m ρ c (Proc.devRef .tc main_arg8) = m ((c : Thread nD τ).loc main_arg8) :=
  (W4_of_ne m ρ c main_arg8 (by decide)).trans (arg8_at3 m ρ c)

theorem arg8_at5 : W5 (F := Ideal) m ρ c (Proc.devRef .tc main_arg8) = m ((c : Thread nD τ).loc main_arg8) :=
  (host1_arg8 (W4 m ρ c)).trans (arg8_at4 m ρ c)

theorem arg8_at6 : W6 (F := Ideal) m ρ c (Proc.devRef .tc main_arg8) = m ((c : Thread nD τ).loc main_arg8) :=
  (W6_of_ne m ρ c main_arg8 (by decide)).trans (arg8_at5 m ρ c)

theorem arg8_at9 : W9 (F := Ideal) m ρ c (Proc.devRef .tc main_arg8) = m ((c : Thread nD τ).loc main_arg8) :=
  (host2_arg8 (W6 m ρ c)).trans (arg8_at6 m ρ c)

theorem arg8_at10 : W10 (F := Ideal) m ρ c (Proc.devRef .tc main_arg8) = m ((c : Thread nD τ).loc main_arg8) :=
  (W10_of_ne m ρ c main_arg8 (by decide)).trans (arg8_at9 m ρ c)

theorem arg8_at11 : W11 (F := Ideal) m ρ c (Proc.devRef .tc main_arg8) = m ((c : Thread nD τ).loc main_arg8) :=
  (host3_arg8 (W10 m ρ c)).trans (arg8_at10 m ρ c)

theorem arg8_at12 : W12 (F := Ideal) m ρ c (Proc.devRef .tc main_arg8) = m ((c : Thread nD τ).loc main_arg8) :=
  (W12_of_ne m ρ c main_arg8 (by decide)).trans (arg8_at11 m ρ c)

theorem arg8_at15 : W15 (F := Ideal) m ρ c (Proc.devRef .tc main_arg8) = m ((c : Thread nD τ).loc main_arg8) :=
  (host4_arg8 (W12 m ρ c)).trans (arg8_at12 m ρ c)

/-! ### Argument 9, read at boundary 16 -/

theorem arg9_at3 : W3 (F := Ideal) m ρ c (Proc.devRef .tc main_arg9) = m ((c : Thread nD τ).loc main_arg9) :=
  host0_arg9 (W0 m ρ c)

theorem arg9_at4 : W4 (F := Ideal) m ρ c (Proc.devRef .tc main_arg9) = m ((c : Thread nD τ).loc main_arg9) :=
  (W4_of_ne m ρ c main_arg9 (by decide)).trans (arg9_at3 m ρ c)

theorem arg9_at5 : W5 (F := Ideal) m ρ c (Proc.devRef .tc main_arg9) = m ((c : Thread nD τ).loc main_arg9) :=
  (host1_arg9 (W4 m ρ c)).trans (arg9_at4 m ρ c)

theorem arg9_at6 : W6 (F := Ideal) m ρ c (Proc.devRef .tc main_arg9) = m ((c : Thread nD τ).loc main_arg9) :=
  (W6_of_ne m ρ c main_arg9 (by decide)).trans (arg9_at5 m ρ c)

theorem arg9_at9 : W9 (F := Ideal) m ρ c (Proc.devRef .tc main_arg9) = m ((c : Thread nD τ).loc main_arg9) :=
  (host2_arg9 (W6 m ρ c)).trans (arg9_at6 m ρ c)

theorem arg9_at10 : W10 (F := Ideal) m ρ c (Proc.devRef .tc main_arg9) = m ((c : Thread nD τ).loc main_arg9) :=
  (W10_of_ne m ρ c main_arg9 (by decide)).trans (arg9_at9 m ρ c)

theorem arg9_at11 : W11 (F := Ideal) m ρ c (Proc.devRef .tc main_arg9) = m ((c : Thread nD τ).loc main_arg9) :=
  (host3_arg9 (W10 m ρ c)).trans (arg9_at10 m ρ c)

theorem arg9_at12 : W12 (F := Ideal) m ρ c (Proc.devRef .tc main_arg9) = m ((c : Thread nD τ).loc main_arg9) :=
  (W12_of_ne m ρ c main_arg9 (by decide)).trans (arg9_at11 m ρ c)

theorem arg9_at15 : W15 (F := Ideal) m ρ c (Proc.devRef .tc main_arg9) = m ((c : Thread nD τ).loc main_arg9) :=
  (host4_arg9 (W12 m ρ c)).trans (arg9_at12 m ρ c)

theorem arg9_at16 : W16 (F := Ideal) m ρ c (Proc.devRef .tc main_arg9) = m ((c : Thread nD τ).loc main_arg9) :=
  (W16_of_ne m ρ c main_arg9 (by decide)).trans (arg9_at15 m ρ c)

end Cert.KernelIdeal.Args

end
-- ==== Proof.Matmul2.lean ====
import proofs.«106770_j28578712388230_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! The second layer's matrix product, read off the row-blocked kernel.

The output array [50000, 32] is written in 25 row blocks of 2000 rows. At grid point t the body multiplies rows
2000·t … 2000·t + 1999 of the lhs array [50000, 64] by the whole weight array [64, 32]: entry (r, c) of the block is
∑ k < 64, lhs (2000·t + r, k) · w (k, c), which depends on one row of the lhs and one column of the weights. On exact
values the rounding of both operands to bf16 is the identity and the accumulator starts at zero, so block t of the
output is block t of the plain product x · w; the 25 blocks tile the array, so the array after the run is x · w. -/

set_option maxRecDepth 16384

noncomputable section

namespace Cert.KernelIdeal.Matmul2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- the lhs entry of row (i 0) at contraction position k -/
abbrev rowAt (i : S50000x32.Idx) (k : Fin 64) : S50000x64.Idx := fun a => match a with
  | ⟨0, _⟩ => ⟨(i 0).val, (i 0).isLt⟩
  | ⟨1, _⟩ => ⟨k.val, k.isLt⟩
/-- the rhs entry of column (i 1) at contraction position k -/
abbrev colAt (i : S50000x32.Idx) (k : Fin 64) : S64x32.Idx := fun a => match a with
  | ⟨0, _⟩ => ⟨k.val, k.isLt⟩
  | ⟨1, _⟩ => ⟨(i 1).val, (i 1).isLt⟩
/-- the plain matrix product x · w, entry by entry -/
def product (x : Vec Ideal S50000x64 .f32) (w : Vec Ideal S64x32 .f32) : Vec Ideal S50000x32 .f32 :=
  fun i => ∑ k : Fin 64, x (rowAt i k) * w (colAt i k)

/-- inside one row block: the lhs entry of block row (j 0) at contraction position k -/
abbrev blkRow (j : S2000x32.Idx) (k : Fin 64) : S2000x64.Idx := fun a => match a with
  | ⟨0, _⟩ => ⟨(j 0).val, (j 0).isLt⟩
  | ⟨1, _⟩ => ⟨k.val, k.isLt⟩
/-- inside one row block: the rhs entry of column (j 1) at contraction position k -/
abbrev blkCol (j : S2000x32.Idx) (k : Fin 64) : S64x32.Idx := fun a => match a with
  | ⟨0, _⟩ => ⟨k.val, k.isLt⟩
  | ⟨1, _⟩ => ⟨(j 1).val, (j 1).isLt⟩

theorem lhs_axis0 (j : S2000x32.Idx) (q : dot_S2000x64_S64x32_S2000x32_1_0_0_1_n_n.contr.Idx) :
    (dot_S2000x64_S64x32_S2000x32_1_0_0_1_n_n.lhsIdx j q 0).val = (j 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
theorem lhs_axis1 (j : S2000x32.Idx) (q : dot_S2000x64_S64x32_S2000x32_1_0_0_1_n_n.contr.Idx) :
    (dot_S2000x64_S64x32_S2000x32_1_0_0_1_n_n.lhsIdx j q 1).val = (q ⟨0, by decide⟩).val :=
  dot_S2000x64_S64x32_S2000x32_1_0_0_1_n_n.lhsIdx_val_of_single rfl j q
theorem rhs_axis0 (j : S2000x32.Idx) (q : dot_S2000x64_S64x32_S2000x32_1_0_0_1_n_n.contr.Idx) :
    (dot_S2000x64_S64x32_S2000x32_1_0_0_1_n_n.rhsIdx j q 0).val = (q ⟨0, by decide⟩).val :=
  dot_S2000x64_S64x32_S2000x32_1_0_0_1_n_n.rhsIdx_val_of_single rfl j q
theorem rhs_axis1 (j : S2000x32.Idx) (q : dot_S2000x64_S64x32_S2000x32_1_0_0_1_n_n.contr.Idx) :
    (dot_S2000x64_S64x32_S2000x32_1_0_0_1_n_n.rhsIdx j q 1).val = (j 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl

set_option maxHeartbeats 400000 in
/-- The body's payload on one pair of loaded blocks, entry by entry: the rounding to bf16 is the identity on exact
    values and the accumulator is zero, so entry j is the sum over the 64 contraction positions. -/
theorem payload_apply (x0 : Vec Ideal S2000x64 .f32) (x1 : Vec Ideal S64x32 .f32) (j : S2000x32.Idx) :
    k2_pay1 (F := Ideal) x0 x1 j = ∑ k : Fin 64, x0 (blkRow j k) * x1 (blkCol j k) := by
  unfold k2_pay1
  simp only [matmul]
  rw [Ideal.matmul_constant_zero_apply, ← Equiv.sum_comp (ValueIdx.contrEquiv1 dot_S2000x64_S64x32_S2000x32_1_0_0_1_n_n 64 rfl rfl).symm]
  refine Finset.sum_congr rfl fun k _ => ?_
  have hk := ValueIdx.contrEquiv1_symm_val dot_S2000x64_S64x32_S2000x32_1_0_0_1_n_n 64 rfl rfl k
  have el : dot_S2000x64_S64x32_S2000x32_1_0_0_1_n_n.lhsIdx j ((ValueIdx.contrEquiv1 dot_S2000x64_S64x32_S2000x32_1_0_0_1_n_n 64 rfl rfl).symm k) = blkRow j k := funext fun a => Fin.ext (by
    match a with
    | ⟨0, _⟩ => exact lhs_axis0 _ _
    | ⟨1, _⟩ => exact (lhs_axis1 _ _).trans hk)
  have er : dot_S2000x64_S64x32_S2000x32_1_0_0_1_n_n.rhsIdx j ((ValueIdx.contrEquiv1 dot_S2000x64_S64x32_S2000x32_1_0_0_1_n_n 64 rfl rfl).symm k) = blkCol j k := funext fun a => Fin.ext (by
    match a with
    | ⟨0, _⟩ => exact (rhs_axis0 _ _).trans hk
    | ⟨1, _⟩ => exact rhs_axis1 _ _)
  rw [ValueIdx.truncf_apply, ValueIdx.truncf_apply, shapeCast_self, el, er]

theorem zero_offsets : (![0, 0] : Fin 2 → Nat) = fun _ => 0 := funext fun a => by fin_cases a <;> rfl

/-- The index maps over the 25 grid points: the lhs window and the output window sit at row block t, column block 0;
    the weight window always at block (0, 0). -/
theorem block_indices : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

set_option maxHeartbeats 400000 in
/-- The lhs window's block at point t is rows 2000·t … 2000·t + 1999 of the lhs array. -/
theorem lhs_block_apply (V : (c : Dev nD) → (b : Ref sig .tc) → Buf (Elt Ideal) ((c : Thread nD τ).loc b)) (c : Dev nD)
    (t : Fin cfg2.N) (y : S2000x64.Idx) (i : S50000x64.Idx)
    (h0 : (i 0).val = t.val * 2000 + (y 0).val) (h1 : (i 1).val = (y 1).val) :
    (iblk2 (F := Ideal) V c 0 t : Vec Ideal S2000x64 .f32) y = (V c main_v45 : Vec Ideal S50000x64 .f32) i := by
  obtain ⟨e0, e1, -, -, -, -⟩ := block_indices t
  unfold iblk2
  rw [View.read_apply]
  show V c main_v45 (((cfg2.win 0).blk t).view.emb y) = V c main_v45 i
  refine congrArg (V c main_v45) ?_
  funext a; apply Fin.ext
  match a with
  | ⟨0, _⟩ => show win2_0.index t (0 : Fin 2) * 2000 + 1 * (y 0).val = (i 0).val; omega
  | ⟨1, _⟩ => show win2_0.index t (1 : Fin 2) * 64 + 1 * (y 1).val = (i 1).val; omega

set_option maxHeartbeats 400000 in
/-- The weight window's block at every point is the whole weight array. -/
theorem rhs_block_apply (V : (c : Dev nD) → (b : Ref sig .tc) → Buf (Elt Ideal) ((c : Thread nD τ).loc b)) (c : Dev nD)
    (t : Fin cfg2.N) (y : S64x32.Idx) (i : S64x32.Idx)
    (h0 : (i 0).val = (y 0).val) (h1 : (i 1).val = (y 1).val) :
    (iblk2 (F := Ideal) V c 1 t : Vec Ideal S64x32 .f32) y = (V c main_arg6 : Vec Ideal S64x32 .f32) i := by
  obtain ⟨-, -, e2, e3, -, -⟩ := block_indices t
  unfold iblk2
  rw [View.read_apply]
  show V c main_arg6 (((cfg2.win 1).blk t).view.emb y) = V c main_arg6 i
  refine congrArg (V c main_arg6) ?_
  funext a; apply Fin.ext
  match a with
  | ⟨0, _⟩ => show win2_1.index t (0 : Fin 2) * 64 + 1 * (y 0).val = (i 0).val; omega
  | ⟨1, _⟩ => show win2_1.index t (1 : Fin 2) * 32 + 1 * (y 1).val = (i 1).val; omega

set_option maxHeartbeats 400000 in
/-- Where an entry of the output window's block at point t sits in the output array. -/
theorem out_block_emb (t : Fin cfg2.N) (y : S2000x32.Idx) :
    ((((cfg2.win 2).blk t).view.emb y : S50000x32.Idx) 0).val = t.val * 2000 + (y 0).val
    ∧ ((((cfg2.win 2).blk t).view.emb y : S50000x32.Idx) 1).val = (y 1).val := by
  obtain ⟨-, -, -, -, e4, e5⟩ := block_indices t
  constructor
  · show win2_2.index t (0 : Fin 2) * 2000 + 1 * (y 0).val = _; omega
  · show win2_2.index t (1 : Fin 2) * 32 + 1 * (y 1).val = _; omega

set_option maxHeartbeats 400000 in
/-- What point t writes back is block t of the product of the two arrays as the region finds them. -/
theorem flushed_eq (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal) (product (V c main_v45) (V c main_arg6)) := by
  show (cfg2.win 2).cut (grid2.coords t) ((dat2 (F := Ideal) V c).after 2 t) = _
  rw [after2_2]
  unfold out2_2
  rw [View.canon_unit_zero zero_offsets]
  simp only [View.ld_unit_zero (S := S2000x64) zero_offsets, View.ld_unit_zero (S := S64x32) zero_offsets]
  have entry : ∀ y : S2000x32.Idx, k2_pay1 (F := Ideal) (iblk2 V c 0 t) (iblk2 V c 1 t) y
      = product (V c main_v45) (V c main_arg6) (((cfg2.win 2).blk t).view.emb y) := by
    intro y
    refine (payload_apply _ _ y).trans ?_
    obtain ⟨p0, p1⟩ := out_block_emb t y
    exact Finset.sum_congr rfl fun k _ => congrArg₂ (· * ·)
      (lhs_block_apply V c t (blkRow y k) (rowAt (((cfg2.win 2).blk t).view.emb y) k) p0 rfl)
      (rhs_block_apply V c t (blkCol y k) (colAt (((cfg2.win 2).blk t).view.emb y) k) rfl p1)
  funext j
  exact entry j

/-- An index of the output array is in point t's block iff each coordinate is in the block's range on its axis. -/
theorem mem_block (t : Fin cfg2.N) (i : S50000x32.Idx) :
    i ∈ ((cfg2.win 2).blk t).view.set ↔ ∀ a : Fin 2, win2_2.index t a * S2000x32.size a ≤ (i a).val
      ∧ (i a).val < win2_2.index t a * S2000x32.size a + S2000x32.size a := by
  show i ∈ ((View.whole main_v76).slice (win2_2.rect t)).set ↔ _
  rw [View.set_slice_whole, Rect.mem_set_unit]
  exact Iff.rfl

set_option maxHeartbeats 400000 in
/-- The 25 row blocks tile the output array: row r lies in the block of point r / 2000. -/
theorem cover (i : S50000x32.Idx) :
    ∃ t : Fin cfg2.N, (cfg2.win 2).flush t = true ∧ i ∈ ((cfg2.win 2).blk t).view.set := by
  have hi0 : (i 0).val < 50000 := (i 0).isLt
  have hi1 : (i 1).val < 32 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, e4, e5⟩ := block_indices t
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 32 ≤ (i 1).val ∧ (i 1).val < win2_2.index t (1 : Fin 2) * 32 + 32; omega

/-- The output array after the 25 points is the product of the two arrays as the region finds them. -/
theorem array_eq (V : (c : Dev nD) → (b : Ref sig .tc) → Buf (Elt Ideal) ((c : Thread nD τ).loc b)) (c : Dev nD) :
    (dat2 (F := Ideal) V c).arrAt 2 cfg2.N = product (V c main_v45) (V c main_arg6) :=
  (dat2 (F := Ideal) V c).arrAt_eq_of_cover 2 (product (V c main_v45) (V c main_arg6))
    (fun t _ => flushed_eq V c t) cover

end Cert.KernelIdeal.Matmul2

end
-- ==== Proof.BiasRelu3.lean ====
import proofs.«106770_j28578712388230_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! # Bias and cut-off at zero on the [50000, 32] features

The region adds the one bias row b : [1, 32] to every row of x : [50000, 32] and replaces what is below zero
by zero: entry (r, q) of the result is max (x (r, q) + b (0, q)) 0. The rows are worked through in 25 blocks
of 2000 rows; block t reads rows 2000 t … 2000 t + 1999 of x and the whole of b, and writes the same rows of
the result. This file reads the stored block at an index, places the blocks in the array, and concludes that
the result array is the function `shifted` of the two arrays the region reads. -/

set_option maxRecDepth 16384

noncomputable section

namespace Cert.KernelIdeal.BiasRelu3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## The result, entry by entry -/

/-- the bias entry that column (i 1) of the row adds -/
abbrev biasAt (i : S50000x32.Idx) : S1x32.Idx := fun a => match a with
  | ⟨0, _⟩ => ⟨0, Nat.one_pos⟩
  | ⟨1, _⟩ => ⟨(i 1).val, (i 1).isLt⟩

/-- every row of x plus the bias row, cut off below at zero -/
def shifted (x : Vec Ideal S50000x32 .f32) (b : Vec Ideal S1x32 .f32) : Vec Ideal S50000x32 .f32 :=
  fun i => (FloatOps.maximumf (FloatOps.addf (x i) (b (biasAt i))) (Scalar.ofBits .f32 0x00000000#32) : Ideal .f32)

/-- `shifted` at an index, spelled out. -/
theorem shifted_def (x : Vec Ideal S50000x32 .f32) (b : Vec Ideal S1x32 .f32) (i : S50000x32.Idx) :
    shifted x b i = (FloatOps.maximumf (FloatOps.addf (x i) (b (biasAt i))) (Scalar.ofBits .f32 0x00000000#32) : Ideal .f32) := rfl

/-- One entry of `shifted` from the entries of the two arrays it reads, the two indices given up to equality. -/
theorem shifted_of_entries (X : Vec Ideal S50000x32 .f32) (B : Vec Ideal S1x32 .f32) (i0 i : S50000x32.Idx) (k : S1x32.Idx)
    (h0 : i0 = i) (h1 : k = biasAt i) :
    (FloatOps.maximumf (FloatOps.addf (X i0) (B k)) (Scalar.ofBits .f32 0x00000000#32) : Ideal .f32) = shifted X B i := by
  subst h0 h1; rfl

/-! ## One block of 2000 rows -/

/-- inside one block of rows: the entry of the bias block that column (j 1) adds -/
abbrev biasIn (j : S2000x32.Idx) : S1x32.Idx := fun a => match a with
  | ⟨0, _⟩ => ⟨0, Nat.one_pos⟩
  | ⟨1, _⟩ => ⟨(j 1).val, (j 1).isLt⟩

/-- The stored value at an index of the block: the row's entry plus the bias entry of its column, cut off
    below at zero. The two shape casts keep the shape, so they are identities; the broadcast [1, 32] → [2000, 32]
    repeats the one bias row, so at (p, q) it reads the bias at (0, q). -/
theorem stored_apply (x0 : Vec Ideal S2000x32 .f32) (x1 : Vec Ideal S1x32 .f32) (j : S2000x32.Idx) :
    k3_pay1 (F := Ideal) x0 x1 j
      = (FloatOps.maximumf (FloatOps.addf (x0 j) (x1 (biasIn j))) (Scalar.ofBits .f32 0x00000000#32) : Ideal .f32) := by
  unfold k3_pay1
  show (FloatOps.maximumf (FloatOps.addf (shapeCast S2000x32 x0 shapeCasts_S2000x32_S2000x32 j)
      (broadcastTo S2000x32 (shapeCast S1x32 x1 shapeCasts_S1x32_S1x32) broadcasts_S1x32_S2000x32 j))
      (Scalar.ofBits .f32 0x00000000#32) : Ideal .f32) = _
  rw [shapeCast_self, shapeCast_self]
  rw [broadcastTo_apply x1 broadcasts_S1x32_S2000x32 j (biasIn j) (fun a => by
        match a with
        | ⟨0, _⟩ => rfl
        | ⟨1, _⟩ => rfl)]

/-! ## Where the blocks sit in the arrays -/

/-- The body loads and stores whole blocks: the offset of each access is the origin. -/
theorem origin : (![0, 0] : Fin 2 → Nat) = fun _ => 0 := funext fun a => by fin_cases a <;> rfl

/-- The block-index maps over the 25 grid points: at point t the block of x and the block of the result are
    row block t in the one column block; the bias is its one block at every point. -/
theorem block_indices : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

section AtEntry

-- the buffer contents when the region is entered
variable (V : (c : Dev nD) → (b : Ref sig .tc) → Buf (Elt Ideal) ((c : Thread nD τ).loc b))

/-- An entry of the block of x at point t is the entry of x under it. -/
theorem rows_apply (c : Dev nD) (t : Fin cfg3.N) (j : S2000x32.Idx) :
    (iblk3 V c 0 t : Vec Ideal S2000x32 .f32) j = V c main_v89 (((cfg3.win 0).blk t).view.emb j) := rfl

/-- An entry of the bias block at point t is the entry of the bias under it. -/
theorem bias_apply (c : Dev nD) (t : Fin cfg3.N) (k : S1x32.Idx) :
    (iblk3 V c 1 t : Vec Ideal S1x32 .f32) k = V c main_v90 (((cfg3.win 1).blk t).view.emb k) := rfl

/-- An entry of the result's block at point t, read off a whole array, is the array's entry under it. -/
theorem result_apply (t : Fin cfg3.N) (G : Vec Ideal S50000x32 .f32) (j : S2000x32.Idx) :
    (((cfg3.win 2).blk t).view.read (Elt Ideal) G : Vec Ideal S2000x32 .f32) j = G (((cfg3.win 2).blk t).view.emb j) := rfl

/-- WHAT POINT t WRITES BACK is block t of `shifted` of the two arrays as the region finds them: row p of the
    block is row 2000 t + p of x and of the result, and the bias block is the bias itself. -/
theorem written_block (c : Dev nD) (t : Fin cfg3.N) :
    (dat3 (F := Ideal) V c).flushed 2 t
      = ((cfg3.win 2).blk t).view.read (Elt Ideal) (shifted (V c main_v89) (V c main_v90)) := by
  show (cfg3.win 2).cut (grid3.coords t) ((dat3 V c).after 2 t) = _
  rw [after3_2]
  unfold out3_2
  rw [View.canon_unit_zero origin]
  simp only [View.ld_unit_zero (S := S2000x32) origin, View.ld_unit_zero (S := S1x32) origin]
  obtain ⟨e0, e1, e2, e3, e4, e5⟩ := block_indices t
  funext j
  refine (stored_apply (iblk3 V c 0 t) (iblk3 V c 1 t) j).trans ?_
  refine ((congrArg₂ (fun (u v : Ideal .f32) =>
      (FloatOps.maximumf (FloatOps.addf u v) (Scalar.ofBits .f32 0x00000000#32) : Ideal .f32))
    (rows_apply V c t j) (bias_apply V c t (biasIn j))).trans ?_).trans
      (result_apply t (shifted (V c main_v89) (V c main_v90)) j).symm
  refine shifted_of_entries (V c main_v89) (V c main_v90) _ _ _ ?_ ?_
  · -- the row of x read is the row of the result written
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 32 + 1 * (j 1).val = win3_2.index t (1 : Fin 2) * 32 + 1 * (j 1).val; omega
  · -- the bias entry read is the one of the written entry's column
    funext a; apply Fin.ext
    match a with
    | ⟨0, _⟩ => show win3_1.index t (0 : Fin 2) * 1 + 1 * 0 = 0; omega
    | ⟨1, _⟩ => show win3_1.index t (1 : Fin 2) * 32 + 1 * (j 1).val = win3_2.index t (1 : Fin 2) * 32 + 1 * (j 1).val; omega

end AtEntry

/-! ## The blocks tile the array -/

/-- An index of the result is in point t's block iff each coordinate is in the block's range on its axis. -/
theorem mem_block (t : Fin cfg3.N) (i : S50000x32.Idx) :
    i ∈ ((cfg3.win 2).blk t).view.set ↔ ∀ a : Fin 2, win3_2.index t a * S2000x32.size a ≤ (i a).val
      ∧ (i a).val < win3_2.index t a * S2000x32.size a + S2000x32.size a := by
  show i ∈ ((View.whole main_v91).slice (win3_2.rect t)).set ↔ _
  rw [View.set_slice_whole, Rect.mem_set_unit]
  exact Iff.rfl

/-- Row r of the result lies in the block of point r / 2000: the 25 blocks of 2000 rows tile the 50000 rows. -/
theorem rows_covered (i : S50000x32.Idx) :
    ∃ t : Fin cfg3.N, (cfg3.win 2).flush t = true ∧ i ∈ ((cfg3.win 2).blk t).view.set := by
  have hi0 : (i 0).val < 50000 := (i 0).isLt
  have hi1 : (i 1).val < 32 := (i 1).isLt
  have hN : cfg3.N = 25 := N_3
  have ht : (i 0).val / 2000 < cfg3.N := by rw [hN]; omega
  obtain ⟨t, htv⟩ : ∃ t : Fin cfg3.N, t.val = (i 0).val / 2000 := ⟨⟨_, ht⟩, rfl⟩
  obtain ⟨-, -, -, -, e4, e5⟩ := block_indices t
  refine ⟨t, flush3_2 t, ?_⟩
  rw [mem_block]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 32 ≤ (i 1).val ∧ (i 1).val < win3_2.index t (1 : Fin 2) * 32 + 32; omega

/-! ## The result array -/

/-- THE ARRAY after the region: every row of x plus the bias row, cut off below at zero. -/
theorem array_eq (V : (c : Dev nD) → (b : Ref sig .tc) → Buf (Elt Ideal) ((c : Thread nD τ).loc b)) (c : Dev nD) :
    (dat3 (F := Ideal) V c).arrAt 2 cfg3.N = shifted (V c main_v89) (V c main_v90) :=
  (dat3 (F := Ideal) V c).arrAt_eq_of_cover 2 (shifted (V c main_v89) (V c main_v90))
    (fun t _ => written_block V c t) rows_covered

end Cert.KernelIdeal.BiasRelu3

end
-- ==== Proof.Bridge2.lean ====
import proofs.«106770_j28578712388230_1_alg».proof.Proof.RefRead
import proofs.«106770_j28578712388230_1_alg».proof.Proof.Matmul2
import proofs.«106770_j28578712388230_1_alg».proof.Proof.BiasRelu3
import Idealize.ShloMosaic.Lib.Pipeline.Value
import Idealize.ShloMosaic.Lib.ValueIdx

/-! The reference's second layer, stage by stage, against the two whole-array functions of the kernel side.

The reference computes the layer as a `dot_general` x · w of a [50000, 64] array with the [64, 32] weights, and later adds the
bias b : [32] (broadcast first to [1, 32], then along the 50000 rows) and takes the maximum with zero. Read at an entry
(r, c) the first is ∑ k < 64, x (r, k) · w (k, c): the same sum, over the same two index functions, as the kernel
side's `product`. The second is max (y (r, c) + b (c)) 0, and the kernel side's `shifted` reads the same bias entry
through the reshape [32] → [1, 32], whose entry (0, c) is b (c). -/

noncomputable section

namespace Cert.KernelIdeal.Bridge2

open Cert.KernelIdeal Idealize.ShloMosaic

/-- The reference's `dot_general` on any lhs is the plain matrix product, entry by entry: its sum over the one
    contraction axis, re-indexed by the position k < 64, reads lhs (r, k) and w (k, c). -/
theorem product_eq (y : Vec Ideal S50000x64 .f32) (w : Vec Ideal S64x32 .f32) :
    Host.dotGeneral (F := Ideal) (φ₁ := .f32) (φ₂ := .f32) Cert.ReferenceIdeal.dot_S50000x64_S64x32_S50000x32_1_0_0_1_n_n none y w = Matmul2.product y w := by
  funext i
  simp only [Host.dotGeneral]
  rw [Ideal.dotGeneral_apply, ← Equiv.sum_comp (ValueIdx.contrEquiv1 Cert.ReferenceIdeal.dot_S50000x64_S64x32_S50000x32_1_0_0_1_n_n 64 rfl rfl).symm]
  refine Finset.sum_congr rfl fun k _ => ?_
  have hk := ValueIdx.contrEquiv1_symm_val Cert.ReferenceIdeal.dot_S50000x64_S64x32_S50000x32_1_0_0_1_n_n 64 rfl rfl k
  have el : Cert.ReferenceIdeal.dot_S50000x64_S64x32_S50000x32_1_0_0_1_n_n.lhsIdx i ((ValueIdx.contrEquiv1 Cert.ReferenceIdeal.dot_S50000x64_S64x32_S50000x32_1_0_0_1_n_n 64 rfl rfl).symm k) = Matmul2.rowAt i k := funext fun a => Fin.ext (by
    match a with
    | ⟨0, _⟩ => exact Cert.ReferenceIdeal.ReadP.lhs_main_v78_0 _ _
    | ⟨1, _⟩ => exact (Cert.ReferenceIdeal.ReadP.lhs_main_v78_1 _ _).trans hk)
  have er : Cert.ReferenceIdeal.dot_S50000x64_S64x32_S50000x32_1_0_0_1_n_n.rhsIdx i ((ValueIdx.contrEquiv1 Cert.ReferenceIdeal.dot_S50000x64_S64x32_S50000x32_1_0_0_1_n_n 64 rfl rfl).symm k) = Matmul2.colAt i k := funext fun a => Fin.ext (by
    match a with
    | ⟨0, _⟩ => exact (Cert.ReferenceIdeal.ReadP.rhs_main_v78_0 _ _).trans hk
    | ⟨1, _⟩ => exact Cert.ReferenceIdeal.ReadP.rhs_main_v78_1 _ _)
  rw [el, er]

/-- The reference's stage itself: the product of the previous layer's result with the weights. -/
theorem stage_eq (x0 : Vec Ideal S50000x64 .f32) (x1 : IVec S2x800000 32) (x4 : Vec Ideal S64x64 .f32) (x5 : Vec Ideal S64 .f32) (x6 : Vec Ideal S64x32 .f32) :
    Cert.ReferenceIdeal.ReadP.val_main_v78 (F := Ideal) x0 x1 x4 x5 x6 = Matmul2.product (Cert.ReferenceIdeal.ReadP.val_main_v47 (F := Ideal) x0 x1 x4 x5) x6 :=
  product_eq _ _

/-- The bias entry both sides add at an index: the reshape [32] → [1, 32] read at (0, c) is b (c), which is where the
    reference's two broadcasts read. -/
theorem bias_entry (b : Vec Ideal S32 .f32) (h : S32.ShapeCasts S1x32) (i : S50000x32.Idx) :
    b (Cert.ReferenceIdeal.ReadP.idx_main_v92 (Cert.ReferenceIdeal.ReadP.idx_main_v93 i)) = shapeCast S1x32 b h (BiasRelu3.biasAt i) := by
  refine ((shapeCast_addUnit_apply ![32] b h (BiasRelu3.biasAt i)).trans (congrArg b ?_)).symm
  funext a
  match a with
  | ⟨0, _⟩ => rfl

/-- The reference's bias-and-maximum stage is `shifted` of the stage before it and the bias row. -/
theorem shifted_eq (x0 : Vec Ideal S50000x64 .f32) (x1 x2 : IVec S2x800000 32) (x4 : Vec Ideal S64x64 .f32) (x5 : Vec Ideal S64 .f32) (x6 : Vec Ideal S64x32 .f32) (x7 : Vec Ideal S32 .f32) (h : S32.ShapeCasts S1x32) :
    Cert.ReferenceIdeal.ReadP.val_main_v95 (F := Ideal) x0 x1 x2 x4 x5 x6 x7
      = BiasRelu3.shifted (Cert.ReferenceIdeal.ReadP.val_main_v91 (F := Ideal) x0 x1 x2 x4 x5 x6) (shapeCast S1x32 x7 h) := by
  funext i
  rw [Cert.ReferenceIdeal.ReadP.val_main_v95_apply, Cert.ReferenceIdeal.ReadP.val_main_v94_apply, Cert.ReferenceIdeal.ReadP.val_main_v93_apply, Cert.ReferenceIdeal.ReadP.val_main_v92_apply, Cert.ReferenceIdeal.ReadP.val_main_call3_v0_apply, Cert.ReferenceIdeal.ReadP.val_main_call3_cst_apply,
    BiasRelu3.shifted_def, bias_entry x7 h i]

end Cert.KernelIdeal.Bridge2

end
-- ==== Proof.Matmul0.lean ====
import proofs.«106770_j28578712388230_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! The first layer's matrix product, read off the row-blocked kernel.

The output array [50000, 64] is written in 25 row blocks of 2000 rows. At grid point t the body multiplies rows
2000·t … 2000·t + 1999 of the lhs array [50000, 64] by the whole weight array [64, 64]: entry (r, c) of the block is
∑ k < 64, lhs (2000·t + r, k) · w (k, c), which depends on one row of the lhs and one column of the weights. On exact
values the rounding of both operands to bf16 is the identity and the accumulator starts at zero, so block t of the
output is block t of the plain product x · w; the 25 blocks tile the array, so the array after the run is x · w. -/

set_option maxRecDepth 16384

noncomputable section

namespace Cert.KernelIdeal.Matmul0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- the lhs entry of row (i 0) at contraction position k -/
abbrev rowAt (i : S50000x64.Idx) (k : Fin 64) : S50000x64.Idx := fun a => match a with
  | ⟨0, _⟩ => ⟨(i 0).val, (i 0).isLt⟩
  | ⟨1, _⟩ => ⟨k.val, k.isLt⟩
/-- the rhs entry of column (i 1) at contraction position k -/
abbrev colAt (i : S50000x64.Idx) (k : Fin 64) : S64x64.Idx := fun a => match a with
  | ⟨0, _⟩ => ⟨k.val, k.isLt⟩
  | ⟨1, _⟩ => ⟨(i 1).val, (i 1).isLt⟩
/-- the plain matrix product x · w, entry by entry -/
def product (x : Vec Ideal S50000x64 .f32) (w : Vec Ideal S64x64 .f32) : Vec Ideal S50000x64 .f32 :=
  fun i => ∑ k : Fin 64, x (rowAt i k) * w (colAt i k)

/-- inside one row block: the lhs entry of block row (j 0) at contraction position k -/
abbrev blkRow (j : S2000x64.Idx) (k : Fin 64) : S2000x64.Idx := fun a => match a with
  | ⟨0, _⟩ => ⟨(j 0).val, (j 0).isLt⟩
  | ⟨1, _⟩ => ⟨k.val, k.isLt⟩
/-- inside one row block: the rhs entry of column (j 1) at contraction position k -/
abbrev blkCol (j : S2000x64.Idx) (k : Fin 64) : S64x64.Idx := fun a => match a with
  | ⟨0, _⟩ => ⟨k.val, k.isLt⟩
  | ⟨1, _⟩ => ⟨(j 1).val, (j 1).isLt⟩

theorem lhs_axis0 (j : S2000x64.Idx) (q : dot_S2000x64_S64x64_S2000x64_1_0_0_1_n_n.contr.Idx) :
    (dot_S2000x64_S64x64_S2000x64_1_0_0_1_n_n.lhsIdx j q 0).val = (j 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_axis1 (j : S2000x64.Idx) (q : dot_S2000x64_S64x64_S2000x64_1_0_0_1_n_n.contr.Idx) :
    (dot_S2000x64_S64x64_S2000x64_1_0_0_1_n_n.lhsIdx j q 1).val = (q ⟨0, by decide⟩).val :=
  dot_S2000x64_S64x64_S2000x64_1_0_0_1_n_n.lhsIdx_val_of_single rfl j q
theorem rhs_axis0 (j : S2000x64.Idx) (q : dot_S2000x64_S64x64_S2000x64_1_0_0_1_n_n.contr.Idx) :
    (dot_S2000x64_S64x64_S2000x64_1_0_0_1_n_n.rhsIdx j q 0).val = (q ⟨0, by decide⟩).val :=
  dot_S2000x64_S64x64_S2000x64_1_0_0_1_n_n.rhsIdx_val_of_single rfl j q
theorem rhs_axis1 (j : S2000x64.Idx) (q : dot_S2000x64_S64x64_S2000x64_1_0_0_1_n_n.contr.Idx) :
    (dot_S2000x64_S64x64_S2000x64_1_0_0_1_n_n.rhsIdx j q 1).val = (j 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

set_option maxHeartbeats 400000 in
/-- The body's payload on one pair of loaded blocks, entry by entry: the rounding to bf16 is the identity on exact
    values and the accumulator is zero, so entry j is the sum over the 64 contraction positions. -/
theorem payload_apply (x0 : Vec Ideal S2000x64 .f32) (x1 : Vec Ideal S64x64 .f32) (j : S2000x64.Idx) :
    k0_pay1 (F := Ideal) x0 x1 j = ∑ k : Fin 64, x0 (blkRow j k) * x1 (blkCol j k) := by
  unfold k0_pay1
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx j ((ValueIdx.contrEquiv1 dot_S2000x64_S64x64_S2000x64_1_0_0_1_n_n 64 rfl rfl).symm k) = blkRow j k := funext fun a => Fin.ext (by
    match a with
    | ⟨0, _⟩ => exact lhs_axis0 _ _
    | ⟨1, _⟩ => exact (lhs_axis1 _ _).trans hk)
  have er : dot_S2000x64_S64x64_S2000x64_1_0_0_1_n_n.rhsIdx j ((ValueIdx.contrEquiv1 dot_S2000x64_S64x64_S2000x64_1_0_0_1_n_n 64 rfl rfl).symm k) = blkCol j k := funext fun a => Fin.ext (by
    match a with
    | ⟨0, _⟩ => exact (rhs_axis0 _ _).trans hk
    | ⟨1, _⟩ => exact rhs_axis1 _ _)
  rw [ValueIdx.truncf_apply, ValueIdx.truncf_apply, el, er]

theorem zero_offsets : (![0, 0] : Fin 2 → Nat) = fun _ => 0 := funext fun a => by fin_cases a <;> rfl

/-- The index maps over the 25 grid points: the lhs window and the output window sit at row block t, column block 0;
    the weight window always at block (0, 0). -/
theorem block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

set_option maxHeartbeats 400000 in
/-- The lhs window's block at point t is rows 2000·t … 2000·t + 1999 of the lhs array. -/
theorem lhs_block_apply (V : (c : Dev nD) → (b : Ref sig .tc) → Buf (Elt Ideal) ((c : Thread nD τ).loc b)) (c : Dev nD)
    (t : Fin cfg0.N) (y : S2000x64.Idx) (i : S50000x64.Idx)
    (h0 : (i 0).val = t.val * 2000 + (y 0).val) (h1 : (i 1).val = (y 1).val) :
    (iblk0 (F := Ideal) V c 0 t : Vec Ideal S2000x64 .f32) y = (V c main_arg0 : Vec Ideal S50000x64 .f32) i := by
  obtain ⟨e0, e1, -, -, -, -⟩ := block_indices t
  unfold iblk0
  rw [View.read_apply]
  show V c main_arg0 (((cfg0.win 0).blk t).view.emb y) = V c main_arg0 i
  refine congrArg (V c main_arg0) ?_
  funext a; apply Fin.ext
  match a with
  | ⟨0, _⟩ => show win0_0.index t (0 : Fin 2) * 2000 + 1 * (y 0).val = (i 0).val; omega
  | ⟨1, _⟩ => show win0_0.index t (1 : Fin 2) * 64 + 1 * (y 1).val = (i 1).val; omega

set_option maxHeartbeats 400000 in
/-- The weight window's block at every point is the whole weight array. -/
theorem rhs_block_apply (V : (c : Dev nD) → (b : Ref sig .tc) → Buf (Elt Ideal) ((c : Thread nD τ).loc b)) (c : Dev nD)
    (t : Fin cfg0.N) (y : S64x64.Idx) (i : S64x64.Idx)
    (h0 : (i 0).val = (y 0).val) (h1 : (i 1).val = (y 1).val) :
    (iblk0 (F := Ideal) V c 1 t : Vec Ideal S64x64 .f32) y = (V c main_arg4 : Vec Ideal S64x64 .f32) i := by
  obtain ⟨-, -, e2, e3, -, -⟩ := block_indices t
  unfold iblk0
  rw [View.read_apply]
  show V c main_arg4 (((cfg0.win 1).blk t).view.emb y) = V c main_arg4 i
  refine congrArg (V c main_arg4) ?_
  funext a; apply Fin.ext
  match a with
  | ⟨0, _⟩ => show win0_1.index t (0 : Fin 2) * 64 + 1 * (y 0).val = (i 0).val; omega
  | ⟨1, _⟩ => show win0_1.index t (1 : Fin 2) * 64 + 1 * (y 1).val = (i 1).val; omega

set_option maxHeartbeats 400000 in
/-- Where an entry of the output window's block at point t sits in the output array. -/
theorem out_block_emb (t : Fin cfg0.N) (y : S2000x64.Idx) :
    ((((cfg0.win 2).blk t).view.emb y : S50000x64.Idx) 0).val = t.val * 2000 + (y 0).val
    ∧ ((((cfg0.win 2).blk t).view.emb y : S50000x64.Idx) 1).val = (y 1).val := by
  obtain ⟨-, -, -, -, e4, e5⟩ := block_indices t
  constructor
  · show win0_2.index t (0 : Fin 2) * 2000 + 1 * (y 0).val = _; omega
  · show win0_2.index t (1 : Fin 2) * 64 + 1 * (y 1).val = _; omega

set_option maxHeartbeats 400000 in
/-- What point t writes back is block t of the product of the two arrays as the region finds them. -/
theorem flushed_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (product (V c main_arg0) (V c main_arg4)) := by
  show (cfg0.win 2).cut (grid0.coords t) ((dat0 (F := Ideal) V c).after 2 t) = _
  rw [after0_2]
  unfold out0_2
  rw [View.canon_unit_zero zero_offsets]
  simp only [View.ld_unit_zero (S := S2000x64) zero_offsets, View.ld_unit_zero (S := S64x64) zero_offsets]
  have entry : ∀ y : S2000x64.Idx, k0_pay1 (F := Ideal) (iblk0 V c 0 t) (iblk0 V c 1 t) y
      = product (V c main_arg0) (V c main_arg4) (((cfg0.win 2).blk t).view.emb y) := by
    intro y
    refine (payload_apply _ _ y).trans ?_
    obtain ⟨p0, p1⟩ := out_block_emb t y
    exact Finset.sum_congr rfl fun k _ => congrArg₂ (· * ·)
      (lhs_block_apply V c t (blkRow y k) (rowAt (((cfg0.win 2).blk t).view.emb y) k) p0 rfl)
      (rhs_block_apply V c t (blkCol y k) (colAt (((cfg0.win 2).blk t).view.emb y) k) rfl p1)
  funext j
  exact entry j

/-- An index of the output array is in point t's block iff each coordinate is in the block's range on its axis. -/
theorem mem_block (t : Fin cfg0.N) (i : S50000x64.Idx) :
    i ∈ ((cfg0.win 2).blk t).view.set ↔ ∀ a : Fin 2, win0_2.index t a * S2000x64.size a ≤ (i a).val
      ∧ (i a).val < win0_2.index t a * S2000x64.size a + S2000x64.size a := by
  show i ∈ ((View.whole main_v30).slice (win0_2.rect t)).set ↔ _
  rw [View.set_slice_whole, Rect.mem_set_unit]
  exact Iff.rfl

set_option maxHeartbeats 400000 in
/-- The 25 row blocks tile the output array: row r lies in the block of point r / 2000. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, e4, e5⟩ := block_indices t
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The output array after the 25 points is the product of the two arrays as the region finds them. -/
theorem array_eq (V : (c : Dev nD) → (b : Ref sig .tc) → Buf (Elt Ideal) ((c : Thread nD τ).loc b)) (c : Dev nD) :
    (dat0 (F := Ideal) V c).arrAt 2 cfg0.N = product (V c main_arg0) (V c main_arg4) :=
  (dat0 (F := Ideal) V c).arrAt_eq_of_cover 2 (product (V c main_arg0) (V c main_arg4))
    (fun t _ => flushed_eq V c t) cover

end Cert.KernelIdeal.Matmul0

end
-- ==== Proof.BiasRelu1.lean ====
import proofs.«106770_j28578712388230_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! # Bias and cut-off at zero on the [50000, 64] features

The region adds the one bias row b : [1, 64] to every row of x : [50000, 64] and replaces what is below zero
by zero: entry (r, q) of the result is max (x (r, q) + b (0, q)) 0. The rows are worked through in 25 blocks
of 2000 rows; block t reads rows 2000 t … 2000 t + 1999 of x and the whole of b, and writes the same rows of
the result. This file reads the stored block at an index, places the blocks in the array, and concludes that
the result array is the function `shifted` of the two arrays the region reads. -/

set_option maxRecDepth 16384

noncomputable section

namespace Cert.KernelIdeal.BiasRelu1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## The result, entry by entry -/

/-- the bias entry that column (i 1) of the row adds -/
abbrev biasAt (i : S50000x64.Idx) : S1x64.Idx := fun a => match a with
  | ⟨0, _⟩ => ⟨0, Nat.one_pos⟩
  | ⟨1, _⟩ => ⟨(i 1).val, (i 1).isLt⟩

/-- every row of x plus the bias row, cut off below at zero -/
def shifted (x : Vec Ideal S50000x64 .f32) (b : Vec Ideal S1x64 .f32) : Vec Ideal S50000x64 .f32 :=
  fun i => (FloatOps.maximumf (FloatOps.addf (x i) (b (biasAt i))) (Scalar.ofBits .f32 0x00000000#32) : Ideal .f32)

/-- `shifted` at an index, spelled out. -/
theorem shifted_def (x : Vec Ideal S50000x64 .f32) (b : Vec Ideal S1x64 .f32) (i : S50000x64.Idx) :
    shifted x b i = (FloatOps.maximumf (FloatOps.addf (x i) (b (biasAt i))) (Scalar.ofBits .f32 0x00000000#32) : Ideal .f32) := rfl

/-- One entry of `shifted` from the entries of the two arrays it reads, the two indices given up to equality. -/
theorem shifted_of_entries (X : Vec Ideal S50000x64 .f32) (B : Vec Ideal S1x64 .f32) (i0 i : S50000x64.Idx) (k : S1x64.Idx)
    (h0 : i0 = i) (h1 : k = biasAt i) :
    (FloatOps.maximumf (FloatOps.addf (X i0) (B k)) (Scalar.ofBits .f32 0x00000000#32) : Ideal .f32) = shifted X B i := by
  subst h0 h1; rfl

/-! ## One block of 2000 rows -/

/-- inside one block of rows: the entry of the bias block that column (j 1) adds -/
abbrev biasIn (j : S2000x64.Idx) : S1x64.Idx := fun a => match a with
  | ⟨0, _⟩ => ⟨0, Nat.one_pos⟩
  | ⟨1, _⟩ => ⟨(j 1).val, (j 1).isLt⟩

/-- The stored value at an index of the block: the row's entry plus the bias entry of its column, cut off
    below at zero. The two shape casts keep the shape, so they are identities; the broadcast [1, 64] → [2000, 64]
    repeats the one bias row, so at (p, q) it reads the bias at (0, q). -/
theorem stored_apply (x0 : Vec Ideal S2000x64 .f32) (x1 : Vec Ideal S1x64 .f32) (j : S2000x64.Idx) :
    k1_pay1 (F := Ideal) x0 x1 j
      = (FloatOps.maximumf (FloatOps.addf (x0 j) (x1 (biasIn j))) (Scalar.ofBits .f32 0x00000000#32) : Ideal .f32) := by
  unfold k1_pay1
  show (FloatOps.maximumf (FloatOps.addf (shapeCast S2000x64 x0 shapeCasts_S2000x64_S2000x64 j)
      (broadcastTo S2000x64 (shapeCast S1x64 x1 shapeCasts_S1x64_S1x64) broadcasts_S1x64_S2000x64 j))
      (Scalar.ofBits .f32 0x00000000#32) : Ideal .f32) = _
  rw [shapeCast_self, shapeCast_self]
  rw [broadcastTo_apply x1 broadcasts_S1x64_S2000x64 j (biasIn j) (fun a => by
        match a with
        | ⟨0, _⟩ => rfl
        | ⟨1, _⟩ => rfl)]

/-! ## Where the blocks sit in the arrays -/

/-- The body loads and stores whole blocks: the offset of each access is the origin. -/
theorem origin : (![0, 0] : Fin 2 → Nat) = fun _ => 0 := funext fun a => by fin_cases a <;> rfl

/-- The block-index maps over the 25 grid points: at point t the block of x and the block of the result are
    row block t in the one column block; the bias is its one block at every point. -/
theorem block_indices : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

section AtEntry

-- the buffer contents when the region is entered
variable (V : (c : Dev nD) → (b : Ref sig .tc) → Buf (Elt Ideal) ((c : Thread nD τ).loc b))

/-- An entry of the block of x at point t is the entry of x under it. -/
theorem rows_apply (c : Dev nD) (t : Fin cfg1.N) (j : S2000x64.Idx) :
    (iblk1 V c 0 t : Vec Ideal S2000x64 .f32) j = V c main_v43 (((cfg1.win 0).blk t).view.emb j) := rfl

/-- An entry of the bias block at point t is the entry of the bias under it. -/
theorem bias_apply (c : Dev nD) (t : Fin cfg1.N) (k : S1x64.Idx) :
    (iblk1 V c 1 t : Vec Ideal S1x64 .f32) k = V c main_v44 (((cfg1.win 1).blk t).view.emb k) := rfl

/-- An entry of the result's block at point t, read off a whole array, is the array's entry under it. -/
theorem result_apply (t : Fin cfg1.N) (G : Vec Ideal S50000x64 .f32) (j : S2000x64.Idx) :
    (((cfg1.win 2).blk t).view.read (Elt Ideal) G : Vec Ideal S2000x64 .f32) j = G (((cfg1.win 2).blk t).view.emb j) := rfl

/-- WHAT POINT t WRITES BACK is block t of `shifted` of the two arrays as the region finds them: row p of the
    block is row 2000 t + p of x and of the result, and the bias block is the bias itself. -/
theorem written_block (c : Dev nD) (t : Fin cfg1.N) :
    (dat1 (F := Ideal) V c).flushed 2 t
      = ((cfg1.win 2).blk t).view.read (Elt Ideal) (shifted (V c main_v43) (V c main_v44)) := by
  show (cfg1.win 2).cut (grid1.coords t) ((dat1 V c).after 2 t) = _
  rw [after1_2]
  unfold out1_2
  rw [View.canon_unit_zero origin]
  simp only [View.ld_unit_zero (S := S2000x64) origin, View.ld_unit_zero (S := S1x64) origin]
  obtain ⟨e0, e1, e2, e3, e4, e5⟩ := block_indices t
  funext j
  refine (stored_apply (iblk1 V c 0 t) (iblk1 V c 1 t) j).trans ?_
  refine ((congrArg₂ (fun (u v : Ideal .f32) =>
      (FloatOps.maximumf (FloatOps.addf u v) (Scalar.ofBits .f32 0x00000000#32) : Ideal .f32))
    (rows_apply V c t j) (bias_apply V c t (biasIn j))).trans ?_).trans
      (result_apply t (shifted (V c main_v43) (V c main_v44)) j).symm
  refine shifted_of_entries (V c main_v43) (V c main_v44) _ _ _ ?_ ?_
  · -- the row of x read is the row of the result written
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 64 + 1 * (j 1).val = win1_2.index t (1 : Fin 2) * 64 + 1 * (j 1).val; omega
  · -- the bias entry read is the one of the written entry's column
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega

end AtEntry

/-! ## The blocks tile the array -/

/-- An index of the result is in point t's block iff each coordinate is in the block's range on its axis. -/
theorem mem_block (t : Fin cfg1.N) (i : S50000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole main_v45).slice (win1_2.rect t)).set ↔ _
  rw [View.set_slice_whole, Rect.mem_set_unit]
  exact Iff.rfl

/-- Row r of the result lies in the block of point r / 2000: the 25 blocks of 2000 rows tile the 50000 rows. -/
theorem rows_covered (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 25 := N_1
  have ht : (i 0).val / 2000 < cfg1.N := by rw [hN]; omega
  obtain ⟨t, htv⟩ : ∃ t : Fin cfg1.N, t.val = (i 0).val / 2000 := ⟨⟨_, ht⟩, rfl⟩
  obtain ⟨-, -, -, -, e4, e5⟩ := block_indices t
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-! ## The result array -/

/-- THE ARRAY after the region: every row of x plus the bias row, cut off below at zero. -/
theorem array_eq (V : (c : Dev nD) → (b : Ref sig .tc) → Buf (Elt Ideal) ((c : Thread nD τ).loc b)) (c : Dev nD) :
    (dat1 (F := Ideal) V c).arrAt 2 cfg1.N = shifted (V c main_v43) (V c main_v44) :=
  (dat1 (F := Ideal) V c).arrAt_eq_of_cover 2 (shifted (V c main_v43) (V c main_v44))
    (fun t _ => written_block V c t) rows_covered

end Cert.KernelIdeal.BiasRelu1

end
-- ==== Proof.Bridge1.lean ====
import proofs.«106770_j28578712388230_1_alg».proof.Proof.RefRead
import proofs.«106770_j28578712388230_1_alg».proof.Proof.Matmul0
import proofs.«106770_j28578712388230_1_alg».proof.Proof.BiasRelu1
import Idealize.ShloMosaic.Lib.Pipeline.Value
import Idealize.ShloMosaic.Lib.ValueIdx

/-! The reference's first layer, stage by stage, against the two whole-array functions of the kernel side.

The reference computes the layer as a `dot_general` x · w of a [50000, 64] array with the [64, 64] weights, and later adds the
bias b : [64] (broadcast first to [1, 64], then along the 50000 rows) and takes the maximum with zero. Read at an entry
(r, c) the first is ∑ k < 64, x (r, k) · w (k, c): the same sum, over the same two index functions, as the kernel
side's `product`. The second is max (y (r, c) + b (c)) 0, and the kernel side's `shifted` reads the same bias entry
through the reshape [64] → [1, 64], whose entry (0, c) is b (c). -/

noncomputable section

namespace Cert.KernelIdeal.Bridge1

open Cert.KernelIdeal Idealize.ShloMosaic

/-- The reference's `dot_general` is the plain matrix product, entry by entry: the same sum over the same entries. -/
theorem product_eq (x : Vec Ideal S50000x64 .f32) (w : Vec Ideal S64x64 .f32) :
    Cert.ReferenceIdeal.ReadP.val_main_v30 (F := Ideal) x w = Matmul0.product x w := by
  funext i
  rw [Cert.ReferenceIdeal.ReadP.val_main_v30_apply]
  rfl

/-- The bias entry both sides add at an index: the reshape [64] → [1, 64] read at (0, c) is b (c), which is where the
    reference's two broadcasts read. -/
theorem bias_entry (b : Vec Ideal S64 .f32) (h : S64.ShapeCasts S1x64) (i : S50000x64.Idx) :
    b (Cert.ReferenceIdeal.ReadP.idx_main_v44 (Cert.ReferenceIdeal.ReadP.idx_main_v45 i)) = shapeCast S1x64 b h (BiasRelu1.biasAt i) := by
  refine ((shapeCast_addUnit_apply ![64] b h (BiasRelu1.biasAt i)).trans (congrArg b ?_)).symm
  funext a
  match a with
  | ⟨0, _⟩ => rfl

/-- The reference's bias-and-maximum stage is `shifted` of the stage before it and the bias row. -/
theorem shifted_eq (x0 : Vec Ideal S50000x64 .f32) (x1 : IVec S2x800000 32) (x4 : Vec Ideal S64x64 .f32) (x5 : Vec Ideal S64 .f32) (h : S64.ShapeCasts S1x64) :
    Cert.ReferenceIdeal.ReadP.val_main_v47 (F := Ideal) x0 x1 x4 x5
      = BiasRelu1.shifted (Cert.ReferenceIdeal.ReadP.val_main_v43 (F := Ideal) x0 x1 x4) (shapeCast S1x64 x5 h) := by
  funext i
  rw [Cert.ReferenceIdeal.ReadP.val_main_v47_apply, Cert.ReferenceIdeal.ReadP.val_main_v46_apply, Cert.ReferenceIdeal.ReadP.val_main_v45_apply, Cert.ReferenceIdeal.ReadP.val_main_v44_apply, Cert.ReferenceIdeal.ReadP.val_main_call1_v0_apply, Cert.ReferenceIdeal.ReadP.val_main_call1_cst_apply,
    BiasRelu1.shifted_def, bias_entry x5 h i]

end Cert.KernelIdeal.Bridge1

end
-- ==== Proof.Chain1.lean ====
import proofs.«106770_j28578712388230_1_alg».proof.Proof.Gen.KernelIdeal.Frame
import proofs.«106770_j28578712388230_1_alg».proof.Proof.RefRead
import proofs.«106770_j28578712388230_1_alg».proof.Proof.Matmul0
import proofs.«106770_j28578712388230_1_alg».proof.Proof.BiasRelu1
import proofs.«106770_j28578712388230_1_alg».proof.Proof.Bridge1
import proofs.«106770_j28578712388230_1_alg».proof.Proof.ArgsKept
import Idealize.ShloMosaic.PureOps.Ideal
import Idealize.ShloMosaic.Lib.StableHlo.Run

/-!
  The first graph-convolution layer, boundary by boundary.

  The program's buffer contents at each boundary are a fold from the launch memory: a host stretch applies its
  operations, a kernel region replaces its arrays by what its write-backs leave. This module reads that fold for the
  first layer. The edge list's source and target columns (self-loops appended), each node's degree and its inverse square
  root (zero where the degree is not positive), and the edge weights (the product of the two end nodes' inverse square
  roots) are the same host operations on both sides. The kernel's row-block product of the node features with the weight
  matrix is the reference's whole product, since a row of the product depends on one row of the features. The gather by
  source, the weighting and the scatter-add by target are again the same host operations, applied to equal values. The
  kernel's epilogue adds the bias to every row and replaces negative entries by zero, as the reference does. Each statement
  says that a buffer at a boundary holds the reference's corresponding stage of the argument arrays. Every comparison is
  made with the contents at the previous boundary as a variable, so that only one stretch is ever opened at a time.
-/

set_option maxRecDepth 16384

noncomputable section

namespace Cert.KernelIdeal.Layer1

open Cert.KernelIdeal Cert.KernelIdeal.Gen Cert.KernelIdeal.Args
open Idealize.ShloMosaic Idealize.ShloMosaic.TcCoe Idealize.SL.Sem Idealize.ShloMosaic.StableHlo
open Cert.ReferenceIdeal.ReadP (val_main_v3 val_main_v6 val_main_v12 val_main_v13 val_main_cst_2 val_main_v14 val_main_v29
  val_main_v30 val_main_v43 val_main_v47)

variable (m : (ℓ : Loc nD τ sig) → Buf (Elt Ideal) ℓ) (ρ : Dev nD → PrngReg) (c : Dev nD)

/-! ## The edge list's columns, the degrees' signs and inverse square roots -/

/-- The edge list as launched. -/
theorem edges_at0 : W0 (F := Ideal) m ρ c (Proc.devRef .tc main_arg1) = m ((c : Thread nD τ).loc main_arg1) := rfl

/-- Each edge's source node, the self-loops appended. -/
theorem sources_at1 : W1 (F := Ideal) m ρ c (Proc.devRef .tc main_v3) = val_main_v3 (F := Ideal) (m ((c : Thread nD τ).loc main_arg1)) := by
  refine Eq.trans ?_ (congrArg (val_main_v3 (F := Ideal)) (edges_at0 m ρ c))
  show StableHlo.after hostOps0 (W0 m ρ c) _ = _
  generalize hU : W0 (F := Ideal) m ρ c = U
  dsimp only [hostOps0]
  after_results_simp <;> rfl

/-- Each edge's target node, the self-loops appended. -/
theorem targets_at1 : W1 (F := Ideal) m ρ c (Proc.devRef .tc main_v6) = val_main_v6 (F := Ideal) (m ((c : Thread nD τ).loc main_arg1)) := by
  refine Eq.trans ?_ (congrArg (val_main_v6 (F := Ideal)) (edges_at0 m ρ c))
  show StableHlo.after hostOps0 (W0 m ρ c) _ = _
  generalize hU : W0 (F := Ideal) m ρ c = U
  dsimp only [hostOps0]
  after_results_simp <;> rfl

/-- Where a node's degree (the number of edges that target it) is positive. -/
theorem positive_at1 : W1 (F := Ideal) m ρ c (Proc.devRef .tc main_v12) = val_main_v12 (F := Ideal) (m ((c : Thread nD τ).loc main_arg1)) := by
  refine Eq.trans ?_ (congrArg (val_main_v12 (F := Ideal)) (edges_at0 m ρ c))
  show StableHlo.after hostOps0 (W0 m ρ c) _ = _
  generalize hU : W0 (F := Ideal) m ρ c = U
  dsimp only [hostOps0]
  after_results_simp <;> rfl

/-- The inverse square root of each node's degree. -/
theorem rsqrt_at1 : W1 (F := Ideal) m ρ c (Proc.devRef .tc main_v13) = val_main_v13 (F := Ideal) (m ((c : Thread nD τ).loc main_arg1)) := by
  refine Eq.trans ?_ (congrArg (val_main_v13 (F := Ideal)) (edges_at0 m ρ c))
  show StableHlo.after hostOps0 (W0 m ρ c) _ = _
  generalize hU : W0 (F := Ideal) m ρ c = U
  dsimp only [hostOps0]
  after_results_simp <;> rfl

/-- The zero that replaces the inverse square root where the degree is not positive. -/
theorem zero_at1 : W1 (F := Ideal) m ρ c (Proc.devRef .tc main_cst_2) = val_main_cst_2 (F := Ideal) := by
  show StableHlo.after hostOps0 (W0 m ρ c) _ = _
  generalize hU : W0 (F := Ideal) m ρ c = U
  dsimp only [hostOps0]
  after_results_simp <;> rfl

/-- The selection between the inverse square root and zero, at any contents: the called function's two operations. -/
theorem select_call (U : Valuation τ sig (Elt Ideal)) :
    StableHlo.after (hostOps0_1 (F := Ideal)) U (Proc.devRef .tc main_v14)
      = select (U (Proc.devRef .tc main_v12)) (U (Proc.devRef .tc main_v13))
          (broadcastInDim S50000 ![] bcast_S_S50000 (U (Proc.devRef .tc main_cst_2))) := by
  dsimp only [hostOps0_1]
  after_results_simp <;> rfl

/-- Each node's scale: the inverse square root of its degree, zero where the degree is not positive. -/
theorem scale_at2 : W2 (F := Ideal) m ρ c (Proc.devRef .tc main_v14) = val_main_v14 (F := Ideal) (m ((c : Thread nD τ).loc main_arg1)) := by
  show StableHlo.after hostOps0_1 (W1 m ρ c) _ = _
  rw [select_call (W1 m ρ c), positive_at1 m ρ c, rsqrt_at1 m ρ c, zero_at1 m ρ c] <;> rfl

theorem sources_at2 : W2 (F := Ideal) m ρ c (Proc.devRef .tc main_v3) = val_main_v3 (F := Ideal) (m ((c : Thread nD τ).loc main_arg1)) := by
  show StableHlo.after hostOps0_1 (W1 m ρ c) _ = _
  generalize hU : W1 (F := Ideal) m ρ c = U
  dsimp only [hostOps0_1]
  after_results_simp
  subst hU
  exact sources_at1 m ρ c

theorem targets_at2 : W2 (F := Ideal) m ρ c (Proc.devRef .tc main_v6) = val_main_v6 (F := Ideal) (m ((c : Thread nD τ).loc main_arg1)) := by
  show StableHlo.after hostOps0_1 (W1 m ρ c) _ = _
  generalize hU : W1 (F := Ideal) m ρ c = U
  dsimp only [hostOps0_1]
  after_results_simp
  subst hU
  exact targets_at1 m ρ c

/-! ## The edge weights -/

/-- Each edge's weight: its two end nodes' scales, gathered and multiplied. -/
theorem weights_at3 : W3 (F := Ideal) m ρ c (Proc.devRef .tc main_v29) = val_main_v29 (F := Ideal) (m ((c : Thread nD τ).loc main_arg1)) := by
  show StableHlo.after hostOps0_2 (W2 m ρ c) _ = _
  generalize hU : W2 (F := Ideal) m ρ c = U
  dsimp only [hostOps0_2]
  after_results_simp
  subst hU
  rw [scale_at2 m ρ c, sources_at2 m ρ c, targets_at2 m ρ c] <;> rfl

theorem sources_at3 : W3 (F := Ideal) m ρ c (Proc.devRef .tc main_v3) = val_main_v3 (F := Ideal) (m ((c : Thread nD τ).loc main_arg1)) := by
  show StableHlo.after hostOps0_2 (W2 m ρ c) _ = _
  generalize hU : W2 (F := Ideal) m ρ c = U
  dsimp only [hostOps0_2]
  after_results_simp
  subst hU
  exact sources_at2 m ρ c

theorem targets_at3 : W3 (F := Ideal) m ρ c (Proc.devRef .tc main_v6) = val_main_v6 (F := Ideal) (m ((c : Thread nD τ).loc main_arg1)) := by
  show StableHlo.after hostOps0_2 (W2 m ρ c) _ = _
  generalize hU : W2 (F := Ideal) m ρ c = U
  dsimp only [hostOps0_2]
  after_results_simp
  subst hU
  exact targets_at2 m ρ c

/-! ## The product -/

/-- After the layer's first kernel region the product buffer holds the reference's product of the layer's input with its
    weight matrix: the region's row blocks tile the array, and each row of a block sums over the same terms. -/
theorem product_at4 : W4 (F := Ideal) m ρ c (Proc.devRef .tc main_v30)
    = val_main_v30 (F := Ideal) (m ((c : Thread nD τ).loc main_arg0)) (m ((c : Thread nD τ).loc main_arg4)) := by
  refine (W4_arr m ρ c 2).trans ((Matmul0.array_eq (V3 m ρ) c).trans ?_)
  have e0 : V3 m ρ c main_arg0 = m ((c : Thread nD τ).loc main_arg0) := arg0_at3 m ρ c
  have e1 : V3 m ρ c main_arg4 = m ((c : Thread nD τ).loc main_arg4) := arg4_at3 m ρ c
  rw [e0, e1]
  exact (Bridge1.product_eq _ _).symm

theorem weights_at4 : W4 (F := Ideal) m ρ c (Proc.devRef .tc main_v29) = val_main_v29 (F := Ideal) (m ((c : Thread nD τ).loc main_arg1)) :=
  (W4_of_ne m ρ c main_v29 (by decide)).trans (weights_at3 m ρ c)
theorem sources_at4 : W4 (F := Ideal) m ρ c (Proc.devRef .tc main_v3) = val_main_v3 (F := Ideal) (m ((c : Thread nD τ).loc main_arg1)) :=
  (W4_of_ne m ρ c main_v3 (by decide)).trans (sources_at3 m ρ c)
theorem targets_at4 : W4 (F := Ideal) m ρ c (Proc.devRef .tc main_v6) = val_main_v6 (F := Ideal) (m ((c : Thread nD τ).loc main_arg1)) :=
  (W4_of_ne m ρ c main_v6 (by decide)).trans (targets_at3 m ρ c)

/-! ## Gather, weight, scatter-add; the bias row -/

/-- The weighted messages summed at their target nodes: the same gather, weighting and scatter-add on both sides, of
    equal products, weights and index columns. -/
theorem sum_at5 : W5 (F := Ideal) m ρ c (Proc.devRef .tc main_v43)
    = val_main_v43 (F := Ideal) (m ((c : Thread nD τ).loc main_arg0)) (m ((c : Thread nD τ).loc main_arg1)) (m ((c : Thread nD τ).loc main_arg4)) := by
  show StableHlo.after hostOps1 (W4 m ρ c) _ = _
  generalize hU : W4 (F := Ideal) m ρ c = U
  dsimp only [hostOps1]
  after_results_simp
  subst hU
  rw [weights_at4 m ρ c, sources_at4 m ρ c, targets_at4 m ρ c, product_at4 m ρ c] <;> rfl

/-- The bias as a one-row matrix. -/
theorem bias_at5 : W5 (F := Ideal) m ρ c (Proc.devRef .tc main_v44)
    = shapeCast S1x64 (m ((c : Thread nD τ).loc main_arg5)) shapeCasts_S64_S1x64 := by
  show StableHlo.after hostOps1 (W4 m ρ c) _ = _
  generalize hU : W4 (F := Ideal) m ρ c = U
  dsimp only [hostOps1]
  after_results_simp
  subst hU
  rw [arg5_at4 m ρ c] <;> rfl

/-! ## The layer's output -/

/-- After the layer's second kernel region the output buffer holds the reference's layer: the bias added to every row,
    negative entries replaced by zero. -/
theorem out_at6 : W6 (F := Ideal) m ρ c (Proc.devRef .tc main_v45)
    = val_main_v47 (F := Ideal) (m ((c : Thread nD τ).loc main_arg0)) (m ((c : Thread nD τ).loc main_arg1)) (m ((c : Thread nD τ).loc main_arg4)) (m ((c : Thread nD τ).loc main_arg5)) := by
  refine (W6_arr m ρ c 2).trans ((BiasRelu1.array_eq (V5 m ρ) c).trans ?_)
  have e0 : V5 m ρ c main_v43 = _ := sum_at5 m ρ c
  have e1 : V5 m ρ c main_v44 = _ := bias_at5 m ρ c
  rw [e0, e1]
  exact (Bridge1.shifted_eq _ _ _ _ _).symm

end Cert.KernelIdeal.Layer1

end
-- ==== Proof.Chain2.lean ====
import proofs.«106770_j28578712388230_1_alg».proof.Proof.Gen.KernelIdeal.Frame
import proofs.«106770_j28578712388230_1_alg».proof.Proof.RefRead
import proofs.«106770_j28578712388230_1_alg».proof.Proof.Matmul2
import proofs.«106770_j28578712388230_1_alg».proof.Proof.BiasRelu3
import proofs.«106770_j28578712388230_1_alg».proof.Proof.Bridge2
import proofs.«106770_j28578712388230_1_alg».proof.Proof.ArgsKept
import proofs.«106770_j28578712388230_1_alg».proof.Proof.Chain1
import Idealize.ShloMosaic.PureOps.Ideal
import Idealize.ShloMosaic.Lib.StableHlo.Run

/-!
  The second graph-convolution layer, boundary by boundary.

  The layer's input is the previous layer's output, which no host operation of the layer's first stretches writes. As in
  the first layer: the edge list's source and target columns (self-loops appended), each node's degree and its inverse
  square root (zero where the degree is not positive) and the edge weights are the same host operations on both sides; the
  kernel's row-block product of the layer's input with its weight matrix is the reference's whole product, since a row of
  the product depends on one row of the input; gather, weighting and scatter-add are the same host operations applied to
  equal values; the epilogue adds the bias to every row and replaces negative entries by zero. Each statement says that a
  buffer at a boundary holds the reference's corresponding stage of the argument arrays, and every comparison is made with
  the contents at the previous boundary as a variable.
-/

set_option maxRecDepth 16384

noncomputable section

namespace Cert.KernelIdeal.Layer2

open Cert.KernelIdeal Cert.KernelIdeal.Gen Cert.KernelIdeal.Args
open Idealize.ShloMosaic Idealize.ShloMosaic.TcCoe Idealize.SL.Sem Idealize.ShloMosaic.StableHlo
open Cert.ReferenceIdeal.ReadP (val_main_v51 val_main_v54 val_main_v60 val_main_v61 val_main_cst_12 val_main_v62 val_main_v77
  val_main_v78 val_main_v91 val_main_v95 val_main_v47)

variable (m : (ℓ : Loc nD τ sig) → Buf (Elt Ideal) ℓ) (ρ : Dev nD → PrngReg) (c : Dev nD)

/-! ## The layer's input and its edge list, where the layer starts -/

/-- The previous layer's output. -/
theorem input_at6 : W6 (F := Ideal) m ρ c (Proc.devRef .tc main_v45) = val_main_v47 (F := Ideal) (m ((c : Thread nD τ).loc main_arg0)) (m ((c : Thread nD τ).loc main_arg1)) (m ((c : Thread nD τ).loc main_arg4)) (m ((c : Thread nD τ).loc main_arg5)) :=
  Layer1.out_at6 m ρ c

/-- The layer's edge list is still as launched. -/
theorem edges_at6 : W6 (F := Ideal) m ρ c (Proc.devRef .tc main_arg2) = m ((c : Thread nD τ).loc main_arg2) :=
  arg2_at6 m ρ c

/-! ## The edge list's columns, the degrees' signs and inverse square roots -/

/-- Each edge's source node, the self-loops appended. -/
theorem sources_at7 : W7 (F := Ideal) m ρ c (Proc.devRef .tc main_v49) = val_main_v51 (F := Ideal) (m ((c : Thread nD τ).loc main_arg2)) := by
  refine Eq.trans ?_ (congrArg (val_main_v51 (F := Ideal)) (edges_at6 m ρ c))
  show StableHlo.after hostOps2 (W6 m ρ c) _ = _
  generalize hU : W6 (F := Ideal) m ρ c = U
  dsimp only [hostOps2]
  after_results_simp <;> rfl

/-- Each edge's target node, the self-loops appended. -/
theorem targets_at7 : W7 (F := Ideal) m ρ c (Proc.devRef .tc main_v52) = val_main_v54 (F := Ideal) (m ((c : Thread nD τ).loc main_arg2)) := by
  refine Eq.trans ?_ (congrArg (val_main_v54 (F := Ideal)) (edges_at6 m ρ c))
  show StableHlo.after hostOps2 (W6 m ρ c) _ = _
  generalize hU : W6 (F := Ideal) m ρ c = U
  dsimp only [hostOps2]
  after_results_simp <;> rfl

/-- Where a node's degree (the number of edges that target it) is positive. -/
theorem positive_at7 : W7 (F := Ideal) m ρ c (Proc.devRef .tc main_v58) = val_main_v60 (F := Ideal) (m ((c : Thread nD τ).loc main_arg2)) := by
  refine Eq.trans ?_ (congrArg (val_main_v60 (F := Ideal)) (edges_at6 m ρ c))
  show StableHlo.after hostOps2 (W6 m ρ c) _ = _
  generalize hU : W6 (F := Ideal) m ρ c = U
  dsimp only [hostOps2]
  after_results_simp <;> rfl

/-- The inverse square root of each node's degree. -/
theorem rsqrt_at7 : W7 (F := Ideal) m ρ c (Proc.devRef .tc main_v59) = val_main_v61 (F := Ideal) (m ((c : Thread nD τ).loc main_arg2)) := by
  refine Eq.trans ?_ (congrArg (val_main_v61 (F := Ideal)) (edges_at6 m ρ c))
  show StableHlo.after hostOps2 (W6 m ρ c) _ = _
  generalize hU : W6 (F := Ideal) m ρ c = U
  dsimp only [hostOps2]
  after_results_simp <;> rfl

/-- The zero that replaces the inverse square root where the degree is not positive. -/
theorem zero_at7 : W7 (F := Ideal) m ρ c (Proc.devRef .tc main_cst_12) = val_main_cst_12 (F := Ideal) := by
  show StableHlo.after hostOps2 (W6 m ρ c) _ = _
  generalize hU : W6 (F := Ideal) m ρ c = U
  dsimp only [hostOps2]
  after_results_simp <;> rfl

theorem input_at7 : W7 (F := Ideal) m ρ c (Proc.devRef .tc main_v45) = val_main_v47 (F := Ideal) (m ((c : Thread nD τ).loc main_arg0)) (m ((c : Thread nD τ).loc main_arg1)) (m ((c : Thread nD τ).loc main_arg4)) (m ((c : Thread nD τ).loc main_arg5)) := by
  show StableHlo.after hostOps2 (W6 m ρ c) _ = _
  generalize hU : W6 (F := Ideal) m ρ c = U
  dsimp only [hostOps2]
  after_results_simp
  subst hU
  exact input_at6 m ρ c

/-- The selection between the inverse square root and zero, at any contents: the called function's two operations. -/
theorem select_call (U : Valuation τ sig (Elt Ideal)) :
    StableHlo.after (hostOps2_1 (F := Ideal)) U (Proc.devRef .tc main_v60)
      = select (U (Proc.devRef .tc main_v58)) (U (Proc.devRef .tc main_v59))
          (broadcastInDim S50000 ![] bcast_S_S50000 (U (Proc.devRef .tc main_cst_12))) := by
  dsimp only [hostOps2_1]
  after_results_simp <;> rfl

/-- Each node's scale: the inverse square root of its degree, zero where the degree is not positive. -/
theorem scale_at8 : W8 (F := Ideal) m ρ c (Proc.devRef .tc main_v60) = val_main_v62 (F := Ideal) (m ((c : Thread nD τ).loc main_arg2)) := by
  show StableHlo.after hostOps2_1 (W7 m ρ c) _ = _
  rw [select_call (W7 m ρ c), positive_at7 m ρ c, rsqrt_at7 m ρ c, zero_at7 m ρ c] <;> rfl

theorem sources_at8 : W8 (F := Ideal) m ρ c (Proc.devRef .tc main_v49) = val_main_v51 (F := Ideal) (m ((c : Thread nD τ).loc main_arg2)) := by
  show StableHlo.after hostOps2_1 (W7 m ρ c) _ = _
  generalize hU : W7 (F := Ideal) m ρ c = U
  dsimp only [hostOps2_1]
  after_results_simp
  subst hU
  exact sources_at7 m ρ c

theorem targets_at8 : W8 (F := Ideal) m ρ c (Proc.devRef .tc main_v52) = val_main_v54 (F := Ideal) (m ((c : Thread nD τ).loc main_arg2)) := by
  show StableHlo.after hostOps2_1 (W7 m ρ c) _ = _
  generalize hU : W7 (F := Ideal) m ρ c = U
  dsimp only [hostOps2_1]
  after_results_simp
  subst hU
  exact targets_at7 m ρ c

theorem input_at8 : W8 (F := Ideal) m ρ c (Proc.devRef .tc main_v45) = val_main_v47 (F := Ideal) (m ((c : Thread nD τ).loc main_arg0)) (m ((c : Thread nD τ).loc main_arg1)) (m ((c : Thread nD τ).loc main_arg4)) (m ((c : Thread nD τ).loc main_arg5)) := by
  show StableHlo.after hostOps2_1 (W7 m ρ c) _ = _
  generalize hU : W7 (F := Ideal) m ρ c = U
  dsimp only [hostOps2_1]
  after_results_simp
  subst hU
  exact input_at7 m ρ c

/-! ## The edge weights -/

/-- Each edge's weight: its two end nodes' scales, gathered and multiplied. -/
theorem weights_at9 : W9 (F := Ideal) m ρ c (Proc.devRef .tc main_v75) = val_main_v77 (F := Ideal) (m ((c : Thread nD τ).loc main_arg2)) := by
  show StableHlo.after hostOps2_2 (W8 m ρ c) _ = _
  generalize hU : W8 (F := Ideal) m ρ c = U
  dsimp only [hostOps2_2]
  after_results_simp
  subst hU
  rw [scale_at8 m ρ c, sources_at8 m ρ c, targets_at8 m ρ c] <;> rfl

theorem sources_at9 : W9 (F := Ideal) m ρ c (Proc.devRef .tc main_v49) = val_main_v51 (F := Ideal) (m ((c : Thread nD τ).loc main_arg2)) := by
  show StableHlo.after hostOps2_2 (W8 m ρ c) _ = _
  generalize hU : W8 (F := Ideal) m ρ c = U
  dsimp only [hostOps2_2]
  after_results_simp
  subst hU
  exact sources_at8 m ρ c

theorem targets_at9 : W9 (F := Ideal) m ρ c (Proc.devRef .tc main_v52) = val_main_v54 (F := Ideal) (m ((c : Thread nD τ).loc main_arg2)) := by
  show StableHlo.after hostOps2_2 (W8 m ρ c) _ = _
  generalize hU : W8 (F := Ideal) m ρ c = U
  dsimp only [hostOps2_2]
  after_results_simp
  subst hU
  exact targets_at8 m ρ c

theorem input_at9 : W9 (F := Ideal) m ρ c (Proc.devRef .tc main_v45) = val_main_v47 (F := Ideal) (m ((c : Thread nD τ).loc main_arg0)) (m ((c : Thread nD τ).loc main_arg1)) (m ((c : Thread nD τ).loc main_arg4)) (m ((c : Thread nD τ).loc main_arg5)) := by
  show StableHlo.after hostOps2_2 (W8 m ρ c) _ = _
  generalize hU : W8 (F := Ideal) m ρ c = U
  dsimp only [hostOps2_2]
  after_results_simp
  subst hU
  exact input_at8 m ρ c

/-! ## The product -/

/-- After the layer's first kernel region the product buffer holds the reference's product of the layer's input with its
    weight matrix: the region's row blocks tile the array, and each row of a block sums over the same terms. -/
theorem product_at10 : W10 (F := Ideal) m ρ c (Proc.devRef .tc main_v76)
    = val_main_v78 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  refine (W10_arr m ρ c 2).trans ((Matmul2.array_eq (V9 m ρ) c).trans ?_)
  have e0 : V9 m ρ c main_v45 = _ := input_at9 m ρ c
  have e1 : V9 m ρ c main_arg6 = m ((c : Thread nD τ).loc main_arg6) := arg6_at9 m ρ c
  rw [e0, e1]
  exact (Bridge2.stage_eq _ _ _ _ _).symm

theorem weights_at10 : W10 (F := Ideal) m ρ c (Proc.devRef .tc main_v75) = val_main_v77 (F := Ideal) (m ((c : Thread nD τ).loc main_arg2)) :=
  (W10_of_ne m ρ c main_v75 (by decide)).trans (weights_at9 m ρ c)
theorem sources_at10 : W10 (F := Ideal) m ρ c (Proc.devRef .tc main_v49) = val_main_v51 (F := Ideal) (m ((c : Thread nD τ).loc main_arg2)) :=
  (W10_of_ne m ρ c main_v49 (by decide)).trans (sources_at9 m ρ c)
theorem targets_at10 : W10 (F := Ideal) m ρ c (Proc.devRef .tc main_v52) = val_main_v54 (F := Ideal) (m ((c : Thread nD τ).loc main_arg2)) :=
  (W10_of_ne m ρ c main_v52 (by decide)).trans (targets_at9 m ρ c)

/-! ## Gather, weight, scatter-add; the bias row -/

/-- The weighted messages summed at their target nodes: the same gather, weighting and scatter-add on both sides, of
    equal products, weights and index columns. -/
theorem sum_at11 : W11 (F := Ideal) m ρ c (Proc.devRef .tc main_v89) = val_main_v91 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  show StableHlo.after hostOps3 (W10 m ρ c) _ = _
  generalize hU : W10 (F := Ideal) m ρ c = U
  dsimp only [hostOps3]
  after_results_simp
  subst hU
  rw [weights_at10 m ρ c, sources_at10 m ρ c, targets_at10 m ρ c, product_at10 m ρ c] <;> rfl

/-- The bias as a one-row matrix. -/
theorem bias_at11 : W11 (F := Ideal) m ρ c (Proc.devRef .tc main_v90) = shapeCast S1x32 (m ((c : Thread nD τ).loc main_arg7)) shapeCasts_S32_S1x32 := by
  show StableHlo.after hostOps3 (W10 m ρ c) _ = _
  generalize hU : W10 (F := Ideal) m ρ c = U
  dsimp only [hostOps3]
  after_results_simp
  subst hU
  rw [arg7_at10 m ρ c] <;> rfl

/-! ## The layer's output -/

/-- After the layer's second kernel region the output buffer holds the reference's layer: the bias added to every row,
    negative entries replaced by zero. -/
theorem out_at12 : W12 (F := Ideal) m ρ c (Proc.devRef .tc main_v91)
    = val_main_v95 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W12_arr m ρ c 2).trans ((BiasRelu3.array_eq (V11 m ρ) c).trans ?_)
  have e0 : V11 m ρ c main_v89 = _ := sum_at11 m ρ c
  have e1 : V11 m ρ c main_v90 = _ := bias_at11 m ρ c
  rw [e0, e1]
  exact (Bridge2.shifted_eq _ _ _ _ _ _ _ _).symm

end Cert.KernelIdeal.Layer2

end
-- ==== Proof.Chain3.lean ====
import proofs.«106770_j28578712388230_1_alg».proof.Proof.Gen.KernelIdeal.Frame
import proofs.«106770_j28578712388230_1_alg».proof.Proof.RefRead
import proofs.«106770_j28578712388230_1_alg».proof.Proof.Matmul4
import proofs.«106770_j28578712388230_1_alg».proof.Proof.BiasRelu5
import proofs.«106770_j28578712388230_1_alg».proof.Proof.Bridge3
import proofs.«106770_j28578712388230_1_alg».proof.Proof.ArgsKept
import proofs.«106770_j28578712388230_1_alg».proof.Proof.Chain2
import Idealize.ShloMosaic.PureOps.Ideal
import Idealize.ShloMosaic.Lib.StableHlo.Run

/-!
  The third graph-convolution layer, boundary by boundary.

  The layer's input is the previous layer's output, which no host operation of the layer's first stretches writes. As in
  the first layer: the edge list's source and target columns (self-loops appended), each node's degree and its inverse
  square root (zero where the degree is not positive) and the edge weights are the same host operations on both sides; the
  kernel's row-block product of the layer's input with its weight matrix is the reference's whole product, since a row of
  the product depends on one row of the input; gather, weighting and scatter-add are the same host operations applied to
  equal values; the epilogue adds the bias to every row and replaces negative entries by zero. Each statement says that a
  buffer at a boundary holds the reference's corresponding stage of the argument arrays, and every comparison is made with
  the contents at the previous boundary as a variable.
-/

set_option maxRecDepth 16384

noncomputable section

namespace Cert.KernelIdeal.Layer3

open Cert.KernelIdeal Cert.KernelIdeal.Gen Cert.KernelIdeal.Args
open Idealize.ShloMosaic Idealize.ShloMosaic.TcCoe Idealize.SL.Sem Idealize.ShloMosaic.StableHlo
open Cert.ReferenceIdeal.ReadP (val_main_v99 val_main_v102 val_main_v108 val_main_v109 val_main_cst_23 val_main_v110 val_main_v125
  val_main_v126 val_main_v139 val_main_v143 val_main_v95)

variable (m : (ℓ : Loc nD τ sig) → Buf (Elt Ideal) ℓ) (ρ : Dev nD → PrngReg) (c : Dev nD)

/-! ## The layer's input and its edge list, where the layer starts -/

/-- The previous layer's output. -/
theorem input_at12 : W12 (F := Ideal) m ρ c (Proc.devRef .tc main_v91) = val_main_v95 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  Layer2.out_at12 m ρ c

/-- The layer's edge list is still as launched. -/
theorem edges_at12 : W12 (F := Ideal) m ρ c (Proc.devRef .tc main_arg3) = m ((c : Thread nD τ).loc main_arg3) :=
  arg3_at12 m ρ c

/-! ## The edge list's columns, the degrees' signs and inverse square roots -/

/-- Each edge's source node, the self-loops appended. -/
theorem sources_at13 : W13 (F := Ideal) m ρ c (Proc.devRef .tc main_v95) = val_main_v99 (F := Ideal) (m ((c : Thread nD τ).loc main_arg3)) := by
  refine Eq.trans ?_ (congrArg (val_main_v99 (F := Ideal)) (edges_at12 m ρ c))
  show StableHlo.after hostOps4 (W12 m ρ c) _ = _
  generalize hU : W12 (F := Ideal) m ρ c = U
  dsimp only [hostOps4]
  after_results_simp <;> rfl

/-- Each edge's target node, the self-loops appended. -/
theorem targets_at13 : W13 (F := Ideal) m ρ c (Proc.devRef .tc main_v98) = val_main_v102 (F := Ideal) (m ((c : Thread nD τ).loc main_arg3)) := by
  refine Eq.trans ?_ (congrArg (val_main_v102 (F := Ideal)) (edges_at12 m ρ c))
  show StableHlo.after hostOps4 (W12 m ρ c) _ = _
  generalize hU : W12 (F := Ideal) m ρ c = U
  dsimp only [hostOps4]
  after_results_simp <;> rfl

/-- Where a node's degree (the number of edges that target it) is positive. -/
theorem positive_at13 : W13 (F := Ideal) m ρ c (Proc.devRef .tc main_v104) = val_main_v108 (F := Ideal) (m ((c : Thread nD τ).loc main_arg3)) := by
  refine Eq.trans ?_ (congrArg (val_main_v108 (F := Ideal)) (edges_at12 m ρ c))
  show StableHlo.after hostOps4 (W12 m ρ c) _ = _
  generalize hU : W12 (F := Ideal) m ρ c = U
  dsimp only [hostOps4]
  after_results_simp <;> rfl

/-- The inverse square root of each node's degree. -/
theorem rsqrt_at13 : W13 (F := Ideal) m ρ c (Proc.devRef .tc main_v105) = val_main_v109 (F := Ideal) (m ((c : Thread nD τ).loc main_arg3)) := by
  refine Eq.trans ?_ (congrArg (val_main_v109 (F := Ideal)) (edges_at12 m ρ c))
  show StableHlo.after hostOps4 (W12 m ρ c) _ = _
  generalize hU : W12 (F := Ideal) m ρ c = U
  dsimp only [hostOps4]
  after_results_simp <;> rfl

/-- The zero that replaces the inverse square root where the degree is not positive. -/
theorem zero_at13 : W13 (F := Ideal) m ρ c (Proc.devRef .tc main_cst_23) = val_main_cst_23 (F := Ideal) := by
  show StableHlo.after hostOps4 (W12 m ρ c) _ = _
  generalize hU : W12 (F := Ideal) m ρ c = U
  dsimp only [hostOps4]
  after_results_simp <;> rfl

theorem input_at13 : W13 (F := Ideal) m ρ c (Proc.devRef .tc main_v91) = val_main_v95 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  show StableHlo.after hostOps4 (W12 m ρ c) _ = _
  generalize hU : W12 (F := Ideal) m ρ c = U
  dsimp only [hostOps4]
  after_results_simp
  subst hU
  exact input_at12 m ρ c

/-- The selection between the inverse square root and zero, at any contents: the called function's two operations. -/
theorem select_call (U : Valuation τ sig (Elt Ideal)) :
    StableHlo.after (hostOps4_1 (F := Ideal)) U (Proc.devRef .tc main_v106)
      = select (U (Proc.devRef .tc main_v104)) (U (Proc.devRef .tc main_v105))
          (broadcastInDim S50000 ![] bcast_S_S50000 (U (Proc.devRef .tc main_cst_23))) := by
  dsimp only [hostOps4_1]
  after_results_simp <;> rfl

/-- Each node's scale: the inverse square root of its degree, zero where the degree is not positive. -/
theorem scale_at14 : W14 (F := Ideal) m ρ c (Proc.devRef .tc main_v106) = val_main_v110 (F := Ideal) (m ((c : Thread nD τ).loc main_arg3)) := by
  show StableHlo.after hostOps4_1 (W13 m ρ c) _ = _
  rw [select_call (W13 m ρ c), positive_at13 m ρ c, rsqrt_at13 m ρ c, zero_at13 m ρ c] <;> rfl

theorem sources_at14 : W14 (F := Ideal) m ρ c (Proc.devRef .tc main_v95) = val_main_v99 (F := Ideal) (m ((c : Thread nD τ).loc main_arg3)) := by
  show StableHlo.after hostOps4_1 (W13 m ρ c) _ = _
  generalize hU : W13 (F := Ideal) m ρ c = U
  dsimp only [hostOps4_1]
  after_results_simp
  subst hU
  exact sources_at13 m ρ c

theorem targets_at14 : W14 (F := Ideal) m ρ c (Proc.devRef .tc main_v98) = val_main_v102 (F := Ideal) (m ((c : Thread nD τ).loc main_arg3)) := by
  show StableHlo.after hostOps4_1 (W13 m ρ c) _ = _
  generalize hU : W13 (F := Ideal) m ρ c = U
  dsimp only [hostOps4_1]
  after_results_simp
  subst hU
  exact targets_at13 m ρ c

theorem input_at14 : W14 (F := Ideal) m ρ c (Proc.devRef .tc main_v91) = val_main_v95 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  show StableHlo.after hostOps4_1 (W13 m ρ c) _ = _
  generalize hU : W13 (F := Ideal) m ρ c = U
  dsimp only [hostOps4_1]
  after_results_simp
  subst hU
  exact input_at13 m ρ c

/-! ## The edge weights -/

/-- Each edge's weight: its two end nodes' scales, gathered and multiplied. -/
theorem weights_at15 : W15 (F := Ideal) m ρ c (Proc.devRef .tc main_v121) = val_main_v125 (F := Ideal) (m ((c : Thread nD τ).loc main_arg3)) := by
  show StableHlo.after hostOps4_2 (W14 m ρ c) _ = _
  generalize hU : W14 (F := Ideal) m ρ c = U
  dsimp only [hostOps4_2]
  after_results_simp
  subst hU
  rw [scale_at14 m ρ c, sources_at14 m ρ c, targets_at14 m ρ c] <;> rfl

theorem sources_at15 : W15 (F := Ideal) m ρ c (Proc.devRef .tc main_v95) = val_main_v99 (F := Ideal) (m ((c : Thread nD τ).loc main_arg3)) := by
  show StableHlo.after hostOps4_2 (W14 m ρ c) _ = _
  generalize hU : W14 (F := Ideal) m ρ c = U
  dsimp only [hostOps4_2]
  after_results_simp
  subst hU
  exact sources_at14 m ρ c

theorem targets_at15 : W15 (F := Ideal) m ρ c (Proc.devRef .tc main_v98) = val_main_v102 (F := Ideal) (m ((c : Thread nD τ).loc main_arg3)) := by
  show StableHlo.after hostOps4_2 (W14 m ρ c) _ = _
  generalize hU : W14 (F := Ideal) m ρ c = U
  dsimp only [hostOps4_2]
  after_results_simp
  subst hU
  exact targets_at14 m ρ c

theorem input_at15 : W15 (F := Ideal) m ρ c (Proc.devRef .tc main_v91) = val_main_v95 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  show StableHlo.after hostOps4_2 (W14 m ρ c) _ = _
  generalize hU : W14 (F := Ideal) m ρ c = U
  dsimp only [hostOps4_2]
  after_results_simp
  subst hU
  exact input_at14 m ρ c

/-! ## The product -/

/-- After the layer's first kernel region the product buffer holds the reference's product of the layer's input with its
    weight matrix: the region's row blocks tile the array, and each row of a block sums over the same terms. -/
theorem product_at16 : W16 (F := Ideal) m ρ c (Proc.devRef .tc main_v122)
    = val_main_v126 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W16_arr m ρ c 2).trans ((Matmul4.array_eq (V15 m ρ) c).trans ?_)
  have e0 : V15 m ρ c main_v91 = _ := input_at15 m ρ c
  have e1 : V15 m ρ c main_arg8 = m ((c : Thread nD τ).loc main_arg8) := arg8_at15 m ρ c
  rw [e0, e1]
  exact (Bridge3.stage_eq _ _ _ _ _ _ _ _).symm

theorem weights_at16 : W16 (F := Ideal) m ρ c (Proc.devRef .tc main_v121) = val_main_v125 (F := Ideal) (m ((c : Thread nD τ).loc main_arg3)) :=
  (W16_of_ne m ρ c main_v121 (by decide)).trans (weights_at15 m ρ c)
theorem sources_at16 : W16 (F := Ideal) m ρ c (Proc.devRef .tc main_v95) = val_main_v99 (F := Ideal) (m ((c : Thread nD τ).loc main_arg3)) :=
  (W16_of_ne m ρ c main_v95 (by decide)).trans (sources_at15 m ρ c)
theorem targets_at16 : W16 (F := Ideal) m ρ c (Proc.devRef .tc main_v98) = val_main_v102 (F := Ideal) (m ((c : Thread nD τ).loc main_arg3)) :=
  (W16_of_ne m ρ c main_v98 (by decide)).trans (targets_at15 m ρ c)

/-! ## Gather, weight, scatter-add; the bias row -/

/-- The weighted messages summed at their target nodes: the same gather, weighting and scatter-add on both sides, of
    equal products, weights and index columns. -/
theorem sum_at17 : W17 (F := Ideal) m ρ c (Proc.devRef .tc main_v135) = val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps5 (W16 m ρ c) _ = _
  generalize hU : W16 (F := Ideal) m ρ c = U
  dsimp only [hostOps5]
  after_results_simp
  subst hU
  rw [weights_at16 m ρ c, sources_at16 m ρ c, targets_at16 m ρ c, product_at16 m ρ c] <;> rfl

/-- The bias as a one-row matrix. -/
theorem bias_at17 : W17 (F := Ideal) m ρ c (Proc.devRef .tc main_v136) = shapeCast S1x16 (m ((c : Thread nD τ).loc main_arg9)) shapeCasts_S16_S1x16 := by
  show StableHlo.after hostOps5 (W16 m ρ c) _ = _
  generalize hU : W16 (F := Ideal) m ρ c = U
  dsimp only [hostOps5]
  after_results_simp
  subst hU
  rw [arg9_at16 m ρ c] <;> rfl

/-! ## The layer's output -/

/-- After the layer's second kernel region the output buffer holds the reference's layer: the bias added to every row,
    negative entries replaced by zero. -/
theorem out_at18 : W18 (F := Ideal) m ρ c (Proc.devRef .tc main_v137)
    = val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W18_arr m ρ c 2).trans ((BiasRelu5.array_eq (V17 m ρ) c).trans ?_)
  have e0 : V17 m ρ c main_v135 = _ := sum_at17 m ρ c
  have e1 : V17 m ρ c main_v136 = _ := bias_at17 m ρ c
  rw [e0, e1]
  exact (Bridge3.shifted_eq _ _ _ _ _ _ _ _ _ _ _).symm

end Cert.KernelIdeal.Layer3

end
-- ==== Proof.lean ====
import proofs.«106770_j28578712388230_1_alg».proof.Defs
import proofs.«106770_j28578712388230_1_alg».proof.Proof.Gen.Kernel
import proofs.«106770_j28578712388230_1_alg».proof.Proof.Gen.Kernel.Frame
import proofs.«106770_j28578712388230_1_alg».proof.Proof.Gen.KernelIdeal
import proofs.«106770_j28578712388230_1_alg».proof.Proof.Gen.KernelIdeal.Frame
import proofs.«106770_j28578712388230_1_alg».proof.Proof.Gen.ReferenceIdeal
import proofs.«106770_j28578712388230_1_alg».proof.Proof.Gen.Pre_finite_inputs
import proofs.«106770_j28578712388230_1_alg».proof.Proof.KernelRun
import proofs.«106770_j28578712388230_1_alg».proof.Proof.RefRun
import proofs.«106770_j28578712388230_1_alg».proof.Proof.RefRead
import proofs.«106770_j28578712388230_1_alg».proof.Proof.Chain3
import Idealize.ShloMosaic.Adequacy
import Idealize.ShloMosaic.Init

/-! Three graph-convolution layers, row-blocked on the accelerator, against their plain whole-array reference.

Each layer is h ↦ max (A (h · W) + b, 0): a matrix product with the layer's weights, a gather of the rows along the
edges, a weighted scatter-add back onto the 50000 nodes, the bias row added to every row, and the maximum with zero.
The kernel program computes the product and the bias-and-maximum step in 25 blocks of 2000 rows each; the gather and
scatter between them are the same host operations in both programs.

Why the two agree at the extended reals. An output row of x · W depends on one row of x only, so the product of a block
of rows is that block of the whole product, and the 25 blocks tile the 50000 rows: the blocked product is the whole
product. The rounding of both operands to bf16 on the way into the product is the identity on exact values, and the
accumulator starts at zero, so each entry is the plain sum ∑ k, x (r, k) · W (k, c) — the reference's `dot_general`
read at an entry. Bias and maximum act entry by entry, hence block by block as on the whole array; the reshape of the
bias [n] → [1, n] reads the same entry the reference's two broadcasts read. The gather and scatter stages are applied,
as the same functions, to arrays already shown equal. The three layers chain: each layer's result is the next one's
input on both sides.

Only equalities of sums taken over the same index set in the same arrangement are used, never distributivity nor a
cancellation, so nothing needs the entries to be finite and the precondition on the inputs is never opened.

The claims: each program runs and leaves its ten argument arrays as launched (the two kernel programs by their
generated frame certificates, the reference by its generated run with the result dropped); the exact-arithmetic
program is the word-level one's text read at the extended reals, no operation rewritten; and from memories that agree
on the ten arguments the exact-arithmetic program and the reference end with equal results. -/

noncomputable section

namespace Cert.Proof

open Idealize.ShloMosaic Idealize.SL.Sem

/-- The word-level program runs and leaves its arguments as launched. -/
theorem frame_words : Cert.frame_Kernel := fun m ρ _ => Cert.Kernel.Gen.frame m ρ

/-- The exact-arithmetic program runs and leaves its arguments as launched. -/
theorem frame_exact : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- No operation was rewritten between the word-level program and its exact-arithmetic reading. -/
theorem preserves : Cert.preserves_Kernel_KernelIdeal := trivial

/-- From memories that agree on the ten arguments, the row-blocked program's third-layer result and the reference's
    are one array: the reference's result is its last stage, max (scatter + bias, 0) of the third layer, at the
    arguments; the agreements carry it to the kernel program's arguments, where the chain of the three layers says the
    kernel program's result buffer holds exactly that. -/
theorem algebraic : Cert.algebraic_KernelIdeal_ReferenceIdeal := by
  intro m ρ m' ρ' _ hagree
  refine ⟨fun c => Cert.KernelIdeal.Gen.W18 (F := Ideal) m ρ c (Proc.devRef .tc Cert.KernelIdeal.main_v137),
    Cert.KernelIdeal.WholeRun.result_and_arguments (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9⟩ := hagree c
  rw [Cert.ReferenceIdeal.ReadP.val_main_v143_eq, a0, a1, a2, a3, a4, a5, a6, a7, a8, a9]
  exact (Cert.KernelIdeal.Layer3.out_at18 m ρ c).symm

theorem claim : Cert.Claim := ⟨Cert.Kernel.Gen.facts, Cert.KernelIdeal.Gen.facts, Cert.ReferenceIdeal.Gen.facts, Cert.Pre_finite_inputs.Gen.facts,
  frame_words, frame_exact, frame_reference, preserves, algebraic⟩

end Cert.Proof

end
